-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S100000x64 : Shape := ⟨2, ![100000, 64]⟩
abbrev S4096 : Shape := ⟨1, ![4096]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v15 : IVec S_ 1) (main_c_5 : IVec S_ 32) : IVec S_ 1 :=
  let main_v16 : IVec S4096 32 := broadcastInDim S4096 ![] bcast_S_S4096 main_c_5
  let main_v17 : IVec S4096 1 := cmpi .sge main_arg3 main_v16
  let main_c_6 : IVec S_ 32 := constantI S_ 32 100000#32
  let main_v18 : IVec S4096 32 := broadcastInDim S4096 ![] bcast_S_S4096 main_c_6
  let main_v19 : IVec S4096 1 := cmpi .slt main_arg3 main_v18
  let main_v20 : IVec S4096 1 := andi main_v17 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v15 main_v21
  main_v22

def fn {F : FTy → Type} [FloatOps F] (main_arg0 : FVec F S1000000x64 .f32) (main_arg1 : FVec F S100000x64 .f32) (main_arg2 : IVec S4096 32) (main_arg3 : IVec S4096 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 1000000#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S1000000x64 : Shape := ⟨2, ![1000000, 64]⟩
abbrev S100000x64 : Shape := ⟨2, ![100000, 64]⟩
abbrev S4096 : Shape := ⟨1, ![4096]⟩
abbrev S1000000x1x64 : Shape := ⟨3, ![1000000, 1, 64]⟩
abbrev S4096x1x64 : Shape := ⟨3, ![4096, 1, 64]⟩
abbrev S1x1x64 : Shape := ⟨3, ![1, 1, 64]⟩
abbrev S1 : Shape := ⟨1, ![1]⟩
abbrev S4096x64 : Shape := ⟨2, ![4096, 64]⟩
abbrev S100000x1x64 : Shape := ⟨3, ![100000, 1, 64]⟩
abbrev S64x4096 : Shape := ⟨2, ![64, 4096]⟩
abbrev S4096x4096 : Shape := ⟨2, ![4096, 4096]⟩
abbrev S512x64 : Shape := ⟨2, ![512, 64]⟩
abbrev S512x4096 : Shape := ⟨2, ![512, 4096]⟩

abbrev nBuf : Space → Nat
  | .hbm => 12
  | .vmem => 13
  | .smem => 2
  | _ => 0

abbrev bufTy : (tb : Table) → Fin (tcTables nBuf tb) → BufTy
  | .hbm, ⟨0, _⟩ => ⟨S1000000x64, .f32⟩
  | .hbm, ⟨1, _⟩ => ⟨S100000x64, .f32⟩
  | .hbm, ⟨2, _⟩ => ⟨S1000000x1x64, .f32⟩
  | .hbm, ⟨3, _⟩ => ⟨S4096x1x64, .f32⟩
  | .hbm, ⟨4, _⟩ => ⟨S4096x64, .f32⟩
  | .hbm, ⟨5, _⟩ => ⟨S100000x1x64, .f32⟩
  | .hbm, ⟨6, _⟩ => ⟨S4096x1x64, .f32⟩
  | .hbm, ⟨7, _⟩ => ⟨S4096x64, .f32⟩
  | .hbm, ⟨8, _⟩ => ⟨S4096x64, .bf16⟩
  | .hbm, ⟨9, _⟩ => ⟨S64x4096, .f32⟩
  | .hbm, ⟨10, _⟩ => ⟨S64x4096, .bf16⟩
  | .hbm, ⟨11, _⟩ => ⟨S4096x4096, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S512x64, .bf16⟩
  | .local _ .vmem, ⟨9, _⟩ => ⟨S512x64, .bf16⟩
  | .local _ .vmem, ⟨10, _⟩ => ⟨S64x4096, .bf16⟩
  | .local _ .vmem, ⟨11, _⟩ => ⟨S512x4096, .f32⟩
  | .local _ .vmem, ⟨12, _⟩ => ⟨S512x4096, .f32⟩
  | .local _ .smem, ⟨0, _⟩ => ⟨S4096, .i32⟩
  | .local _ .smem, ⟨1, _⟩ => ⟨S4096, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![4096], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4096], ![false]⟩

abbrev pre1 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S4096.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1000000x64_S1000000x1x64 : S1000000x64.ShapeCasts S1000000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S4096x1x64_S4096x64 : S4096x1x64.ShapeCasts S4096x64
  shapeCasts_S100000x64_S100000x1x64 : S100000x64.ShapeCasts S100000x1x64
  bitsLt_bf16_f32 : FTy.bits .bf16 < FTy.bits .f32
  transposes_S4096x64_S64x4096_1_0 : S4096x64.Transposes [1, 0] S64x4096
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  dot_S512x64_S64x4096_S512x4096_1_0_0_1_n_n_wf : DotDims.WF S512x64 S64x4096 S512x4096 [1] [0] [0] [1] [] []
  hrank0 : 0 < grid0.rank
  k0_off1_inb : ∀ i : grid0.Coords, ∀ a, (k0_off1 i) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S4096x1x64.size a
  hwx0_1 : ∀ i : grid0.Coords, EltTy.bits .f32 = 32 ∨ (Rect.block (s := S4096x1x64) S1x1x64.size (cc0_transform_1 i) (hinb0_1 i)).WholeWords (EltTy.packing .f32)
  hrank1 : 0 < grid1.rank
  k1_off1_inb : ∀ i : grid1.Coords, ∀ a, (k1_off1 i) a + S1.size a ≤ S4096.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S4096x1x64.size a
  hwx1_1 : ∀ i : grid1.Coords, EltTy.bits .f32 = 32 ∨ (Rect.block (s := S4096x1x64) S1x1x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S4096x64.size a
  hwx2_0 : ∀ i : grid2.Coords, EltTy.bits .bf16 = 32 ∨ (Rect.block (s := S4096x64) S512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4096.size a ≤ S64x4096.size a
  hwx2_1 : ∀ i : grid2.Coords, EltTy.bits .bf16 = 32 ∨ (Rect.block (s := S64x4096) S64x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S4096x4096.size a
  hwx2_2 : ∀ i : grid2.Coords, EltTy.bits .f32 = 32 ∨ (Rect.block (s := S4096x4096) S512x4096.size (cc2_transform_2 i) (hinb2_2 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev spec0_0 : Pipeline.WinSpec sig grid0.rank :=
  Pipeline.WinSpec.ofSpec (Memref.whole main_v0) S1x1x64.size reads0_0 false false 2 stage0_0 sem0_0 nbuf0_0 hstage0_0

abbrev spec0_1 : Pipeline.WinSpec sig grid0.rank :=
  Pipeline.WinSpec.ofSpec (Memref.whole main_v1) S1x1x64.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S1000000x1x64.size a), EltTy.bits .f32 = 32 ∨ (Rect.block (s := S1000000x1x64) S1x1x64.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev spec1_0 : Pipeline.WinSpec sig grid1.rank :=
  Pipeline.WinSpec.ofSpec (Memref.whole main_v3) S1x1x64.size reads1_0 false false 2 stage1_0 sem1_0 nbuf1_0 hstage1_0

abbrev spec1_1 : Pipeline.WinSpec sig grid1.rank :=
  Pipeline.WinSpec.ofSpec (Memref.whole main_v4) S1x1x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S100000x1x64.size a), EltTy.bits .f32 = 32 ∨ (Rect.block (s := S100000x1x64) S1x1x64.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev win2_0 : Pipeline.Window sig grid2 :=
  Pipeline.Window.ofSpec (Memref.whole main_v6) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr0 : ∀ w, (spec0 w).arr.IsWhole
  harr1 : ∀ w, (spec1 w).arr.IsWhole

variable [Facts]
-- ==== ReferenceIdeal.lean ====
abbrev S1000000x64 : Shape := ⟨2, ![1000000, 64]⟩
abbrev S100000x64 : Shape := ⟨2, ![100000, 64]⟩
abbrev S4096 : Shape := ⟨1, ![4096]⟩
abbrev S_ : Shape := ⟨0, ![]⟩
abbrev S4096x1 : Shape := ⟨2, ![4096, 1]⟩
abbrev S4096x64 : Shape := ⟨2, ![4096, 64]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S100000x64, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x64, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x64, .f32⟩
  | .hbm, ⟨22, _⟩ => ⟨S4096x4096, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  gather_S1000000x64_S4096x1_S4096x64_1_0_n_n_0_1_164_wf : GatherDims.WF S1000000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  dot_S4096x64_S4096x64_S4096x4096_1_1_0_0_n_n_wf : DotDims.WF S4096x64 S4096x64 S4096x4096 [1] [1] [0] [0] [] []

variable [Facts₀]

def gather_S1000000x64_S4096x1_S4096x64_1_0_n_n_0_1_164 : GatherDims S1000000x64 S4096x1 S4096x64 where
  offsetDims := [1]
  collapsedSliceDims := [0]
  operandBatchingDims := []
  startIndicesBatchingDims := []
  startIndexMap := [0]
  indexVectorDim := 1
  sliceSizes := ![1, 64]
  wf := gather_S1000000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S4096x64_S4096x64_S4096x4096_1_1_0_0_n_n : DotDims S4096x64 S4096x64 S4096x4096 where
  lhsContracting := [1]
  rhsContracting := [1]
  lhsNonContracting := [0]
  rhsNonContracting := [0]
  lhsBatch := []
  rhsBatch := []
  wf := dot_S4096x64_S4096x64_S4096x4096_1_1_0_0_n_n_wf

class Facts : Prop extends Facts₀ where

variable [Facts]
-- ==== Proof.FrameR0.lean ====
/-
  The user row-gather region, at the buffer contents `V` it is entered with and at admissible contents `a`
  of its prefetched id table. Grid point `t` of 4096 reads ONE row block [1, 1, 64] of the table array
  [1000000, 1, 64] — the row whose number is the t-th id — and writes it as row block `t` of the result
  [4096, 1, 64]: the body stores what it loaded. Stated here: each window's block at a point, what the body leaves
  in the result's staging buffer, the body's run, the region's proof data (whose invariant keeps the id table beside
  the scoped rest and the generator register) and the body obligation at every point. Everything is stated with
  the table's contents a variable, so that nothing ever evaluates them.
-/
import proofs.«117546_j12781822673306_2_alg».proof.Proof.Gen.KernelIdeal.Launch
import proofs.«117546_j12781822673306_2_alg».proof.Proof.Gen.KernelIdeal.Skeleton
import proofs.«117546_j12781822673306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg0 (F := F)).Adm)

/-- Window `w`'s block at point `t`, read off its array as the region finds it; for the table window a function of
    the id at `t`. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The table window's staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0 : Rect S1x1x64 := Rect.unit (s := S1x1x64) ![0, 0, 0] S1x1x64.size inb_S1x1x64_S1x1x64_0_0_0

/-- What the body leaves in the result's staging buffer: its one store, of the block it loaded. -/
def out0_1 (x0 : Vec F S1x1x64 .f32) : Vec F S1x1x64 .f32 :=
  View.canon [⟨r0, k0_pay1 (View.ld x0 r0)⟩]

/-- The store is of the whole buffer. -/
theorem cover0_1 (p0 : Vec F S1x1x64 .f32) (y : S1x1x64.Idx) :
    ∃ pc ∈ ([⟨r0, p0⟩] : List (View.Piece (Elt F) S1x1x64 .f32)), y ∈ pc.1.set :=
  View.cover_of_tiled [⟨r0, p0⟩] S1x1x64.size (by rfl) y

set_option maxHeartbeats 1000000 in
/-- The body on whole staging memrefs, the table window's at read contents `x0` and the result's at anything, runs to
    the continuation holding the table window's as it was and the result's at `out0_1 x0`; the id table's memref is
    passed to the body and never touched. -/
theorem sound_kernel0 (c : Dev nD) (E : Set ℕ) (i : grid0.Coords) (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The id table on core `c`, whole, at the contents the region runs at. -/
abbrev tblHeld0 (c : Dev nD) : sProp 𝕄 :=
  Pipeline.prefHeld (Ix := Unit) (Name := ℕ) (U := UR sig nD τ) (Lvl := ℕ) pre0 c (fun _ => fullShare) a.1

/-- The region's proof data on core `c`: the arrays as the region finds them; after the body at point `t` the table
    window's buffer at its block and the result's at that same block stored back; the invariant the scoped rest,
    the generator register and the id table; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => out0_1 (iblk0 V a c 0 t)
  Φ _ := iprop(Pipeline.ΦA spec0 c ∗ tblHeld0 a c)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = out0_1 (iblk0 V a c 0 t) := by dsimp only [dat0]; try rfl

theorem before0_0 (c : Dev nD) (t : Fin (cfg0 a).N) (d) : (dat0 V a c).before 0 t d = iblk0 V a c 0 t :=
  before0_0_of V a (dat0 V a c) (A_eq0 V a c 0) (after0_0 V a c) t d

/-- Each window's current staging memref at point `t`, spelled as the pipeline passes it, and its wholeness. -/
abbrev ms0_0 (t : Fin (cfg0 a).N) : Memref sig .tc .vmem S1x1x64 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S1x1x64 .f32 := spec0_1.stage ((cfg0 a).slots t 1)
abbrev hs0_1 (t : Fin (cfg0 a).N) : (ms0_1 a t).IsWhole := hstage0_1 (((cfg0 a).slots t 1).cast nbuf0_1)

/-- The kernel body at point `t`, on what the pipeline calls it with. -/
abbrev bodyAt0 (t : Fin (cfg0 a).N) : Prog (TpuEff nD τ sig (Elt F) Λ₀ .tc) PUnit :=
  cc0__gather_kernel (grid0.coords t) (Memref.whole main_arg2) (Memref.isWhole_whole _) (ms0_0 a t) (hs0_0 a t) (ms0_1 a t) (hs0_1 a t)

/-- What the body is called with at point `t`, -/
def bodyPre0 (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before 0 t d))
    ∗ (∃ d, owns (c : Thread nD τ) (ms0_1 a t) fullShare ((dat0 V a c).before 1 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (ms0_0 a t) fullShare ((dat0 V a c).after 0 t)
    ∗ owns (c : Thread nD τ) (ms0_1 a t) fullShare ((dat0 V a c).after 1 t))

/-- The body at any point: the table window's memref holds its block, so the run applies; the invariant and the
    core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0]
  rw [show (dat0 V a c).Φ t.succ = (dat0 V a c).Φ t.castSucc from rfl,
    show (dat0 V a c).owesAt () t.succ = (dat0 V a c).owesAt () t.castSucc from rfl,
    after0_0, after0_1]
  iintro ⟨HΦ, Ho, ⟨%d0, H0⟩, ⟨%d1, H1⟩⟩
  iapply (sound_kernel0 c Set.univ _ _ _ _ _ _ _ (iblk0 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V a c) (defs₀ (F := F)) Variants.none () Set.univ := fun t => by
  rw [bigSep_W0, bigSep_W0]
  exact sound_body0 V a c t

end Cert.KernelIdeal.Fr

end
-- ==== Proof.FrameR1.lean ====
/-
  The item row-gather region, at the buffer contents `V` it is entered with and at admissible contents `a`
  of its prefetched id table. Grid point `t` of 4096 reads ONE row block [1, 1, 64] of the table array
  [100000, 1, 64] — the row whose number is the t-th id — and writes it as row block `t` of the result
  [4096, 1, 64]: the body stores what it loaded. Stated here: each window's block at a point, what the body leaves
  in the result's staging buffer, the body's run, the region's proof data (whose invariant keeps the id table beside
  the scoped rest and the generator register) and the body obligation at every point. Everything is stated with
  the table's contents a variable, so that nothing ever evaluates them.
-/
import proofs.«117546_j12781822673306_2_alg».proof.Proof.Gen.KernelIdeal.Launch
import proofs.«117546_j12781822673306_2_alg».proof.Proof.Gen.KernelIdeal.Skeleton
import proofs.«117546_j12781822673306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-- Window `w`'s block at point `t`, read off its array as the region finds it; for the table window a function of
    the id at `t`. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The table window's staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1 : Rect S1x1x64 := Rect.unit (s := S1x1x64) ![0, 0, 0] S1x1x64.size inb_S1x1x64_S1x1x64_0_0_0

/-- What the body leaves in the result's staging buffer: its one store, of the block it loaded. -/
def out1_1 (x0 : Vec F S1x1x64 .f32) : Vec F S1x1x64 .f32 :=
  View.canon [⟨r1, k1_pay1 (View.ld x0 r1)⟩]

/-- The store is of the whole buffer. -/
theorem cover1_1 (p0 : Vec F S1x1x64 .f32) (y : S1x1x64.Idx) :
    ∃ pc ∈ ([⟨r1, p0⟩] : List (View.Piece (Elt F) S1x1x64 .f32)), y ∈ pc.1.set :=
  View.cover_of_tiled [⟨r1, p0⟩] S1x1x64.size (by rfl) y

set_option maxHeartbeats 1000000 in
/-- The body on whole staging memrefs, the table window's at read contents `x0` and the result's at anything, runs to
    the continuation holding the table window's as it was and the result's at `out1_1 x0`; the id table's memref is
    passed to the body and never touched. -/
theorem sound_kernel1 (c : Dev nD) (E : Set ℕ) (i : grid1.Coords) (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The id table on core `c`, whole, at the contents the region runs at. -/
abbrev tblHeld1 (c : Dev nD) : sProp 𝕄 :=
  Pipeline.prefHeld (Ix := Unit) (Name := ℕ) (U := UR sig nD τ) (Lvl := ℕ) pre1 c (fun _ => fullShare) a.1

/-- The region's proof data on core `c`: the arrays as the region finds them; after the body at point `t` the table
    window's buffer at its block and the result's at that same block stored back; the invariant the scoped rest,
    the generator register and the id table; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => out1_1 (iblk1 V a c 0 t)
  Φ _ := iprop(Pipeline.ΦA spec1 c ∗ tblHeld1 a c)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = out1_1 (iblk1 V a c 0 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d

/-- Each window's current staging memref at point `t`, spelled as the pipeline passes it, and its wholeness. -/
abbrev ms1_0 (t : Fin (cfg1 a).N) : Memref sig .tc .vmem S1x1x64 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x1x64 .f32 := spec1_1.stage ((cfg1 a).slots t 1)
abbrev hs1_1 (t : Fin (cfg1 a).N) : (ms1_1 a t).IsWhole := hstage1_1 (((cfg1 a).slots t 1).cast nbuf1_1)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_arg3) (Memref.isWhole_whole _) (ms1_0 a t) (hs1_0 a t) (ms1_1 a t) (hs1_1 a t)

/-- What the body is called with at point `t`, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t))

/-- The body at any point: the table window's memref holds its block, so the run applies; the invariant and the
    core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.succ = (dat1 V a c).Φ t.castSucc from rfl,
    show (dat1 V a c).owesAt () t.succ = (dat1 V a c).owesAt () t.castSucc from rfl,
    after1_0, after1_1]
  iintro ⟨HΦ, Ho, ⟨%d0, H0⟩, ⟨%d1, H1⟩⟩
  iapply (sound_kernel1 c Set.univ _ _ _ _ _ _ _ (iblk1 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V a c) (defs₀ (F := F)) Variants.none () Set.univ := fun t => by
  rw [bigSep_W1, bigSep_W1]
  exact sound_body1 V a c t

end Cert.KernelIdeal.Fr

end
-- ==== Proof.FrameR2.lean ====
/-
  The product kernel's region, at the buffer contents `V` it is entered with. Grid point `t` of 8 reads rows
  512·t … 512·t + 511 of the left operand [4096, 64] and the whole right operand [64, 4096], and writes the
  512 × 4096 product into the same rows of the result. Stated here: each window's block at a point, what the body
  leaves in the result's staging buffer (its one store, of the product of the two loaded blocks), the body's run,
  the region's proof data and the body obligation at every point.
-/
import proofs.«117546_j12781822673306_2_alg».proof.Proof.Gen.KernelIdeal.Launch
import proofs.«117546_j12781822673306_2_alg».proof.Proof.Gen.KernelIdeal.Skeleton
import proofs.«117546_j12781822673306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its (one) block at every point, though it is fetched only once. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x64 := Rect.unit (s := S512x64) ![0, 0] S512x64.size inb_S512x64_S512x64_0_0
abbrev r2_1 : Rect S64x4096 := Rect.unit (s := S64x4096) ![0, 0] S64x4096.size inb_S64x4096_S64x4096_0_0
abbrev r2_2 : Rect S512x4096 := Rect.unit (s := S512x4096) ![0, 0] S512x4096.size inb_S512x4096_S512x4096_0_0

/-- What the body leaves in the result's staging buffer: its one store, of the product of the two loaded blocks. -/
def out2_2 (x0 : Vec F S512x64 .bf16) (x1 : Vec F S64x4096 .bf16) : Vec F S512x4096 .f32 :=
  View.canon [⟨r2_2, k2_pay1 (View.ld x0 r2_0) (View.ld x1 r2_1)⟩]

/-- The store is of the whole buffer. -/
theorem cover2_2 (p0 : Vec F S512x4096 .f32) (y : S512x4096.Idx) :
    ∃ pc ∈ ([⟨r2_2, p0⟩] : List (View.Piece (Elt F) S512x4096 .f32)), y ∈ pc.1.set :=
  View.cover_of_tiled [⟨r2_2, p0⟩] S512x4096.size (by rfl) y

set_option maxHeartbeats 1000000 in
/-- The body on whole staging memrefs, the operands' at read contents `x0`, `x1` and the result's at anything, runs to
    the continuation holding the operands' as they were and the result's at `out2_2 x0 x1`. -/
theorem sound_kernel2 (c : Dev nD) (E : Set ℕ) (i : grid2.Coords) (arg1 : Memref sig .tc .vmem S512x64 .bf16) (harg1 : arg1.IsWhole)
    (arg2 : Memref sig .tc .vmem S64x4096 .bf16) (harg2 : arg2.IsWhole) (arg3 : Memref sig .tc .vmem S512x4096 .f32) (harg3 : arg3.IsWhole)
    (x0 : Vec F S512x64 .bf16) (x1 : Vec F S64x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each
    operand's buffer at its block and the result's at the product of the two blocks; the invariant the scoped rest
    and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameRun.lean ====
/-
  The whole program's run. Its body is three regions among stretches of host reshapes, a transpose and format
  changes. The buffer contents at every boundary are a fold from the launch memory: a host stretch applies its
  operations, a region leaves its result array at what its write-backs leave and every other buffer as it found it.
  The two gather regions read their block numbers from id tables, which no part of the program writes: the tables'
  contents are read off the launch memory once, the regions' side condition on them (every named row block inside
  its table array) is the hypothesis `Ok`, and the regions run at those contents. Each region is a record over the
  thread state "every unscoped buffer at the boundary's contents, the generator register at some state, nothing
  owed"; a gather region takes its id table out of the unscoped buffers at entry, keeps it in its invariant, and puts
  it back at exit. The run's post names every unscoped buffer's final contents.
-/
import proofs.«117546_j12781822673306_2_alg».proof.Proof.Gen.KernelIdeal.Launch
import proofs.«117546_j12781822673306_2_alg».proof.Proof.Gen.KernelIdeal.Skeleton
import proofs.«117546_j12781822673306_2_alg».proof.Proof.Gen.KernelIdeal.Points
import proofs.«117546_j12781822673306_2_alg».proof.Proof.Gen.KernelIdeal.Regions
import proofs.«117546_j12781822673306_2_alg».proof.Proof.FrameR0
import proofs.«117546_j12781822673306_2_alg».proof.Proof.FrameR1
import proofs.«117546_j12781822673306_2_alg».proof.Proof.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The id tables, read off the launch memory -/

/-- The user-id table's contents at launch (one device: device 0's). -/
def tbl0 : pre0.Contents (Elt F) := fun j => m (((0 : Dev nD) : Thread nD τ).loc (pre0.ref j))
/-- The item-id table's contents at launch. -/
def tbl1 : pre1.Contents (Elt F) := fun j => m (((0 : Dev nD) : Thread nD τ).loc (pre1.ref j))

/-- The regions' side condition on the tables: every row block an id names lies inside its table array. -/
def Ok : Prop := ok0 (F := F) (tbl0 m) ∧ ok1 (F := F) (tbl1 m)

variable (hO : Ok m)

/-- The tables' contents as admissible contents of each pipeline (the product region has no table). -/
def adm : (p : Fin 3) → (pcfgs (F := F) p).Adm
  | ⟨0, _⟩ => ⟨tbl0 m, hO.1⟩
  | ⟨1, _⟩ => ⟨tbl1 m, hO.2⟩
  | ⟨2, _⟩ => cfg2.toPCfg_adm

abbrev a0 : (pcfg0 (F := F)).Adm := ⟨tbl0 m, hO.1⟩
abbrev a1 : (pcfg1 (F := F)).Adm := ⟨tbl1 m, hO.2⟩

/-! ## The buffer contents at each boundary -/

/-- Core `c`'s buffers at launch. -/
abbrev W0 : Dev nD → Valuation τ sig (Elt F) := fun c b => (s₀ m ρ).mem ((c : Dev nD), b)
/-- After the first reshape (the user gather's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the user gather's exit: its arrays at what the pipeline leaves, every other buffer as entered. -/
def W2 (c : Dev nD) : Valuation τ sig (Elt F) :=
  Pipeline.withArrays spec0 c (W1 m ρ c) fun w => (dat0 (U1 m ρ) (a0 m hO) c).arrAt w (cfg0 (a0 m hO)).N
theorem W2_arr (c : Dev nD) (w : Fin (cfg0 (a0 m hO)).W) :
    W2 m ρ hO c (Proc.devRef .tc (Pipeline.arrRef spec0 w)) = (dat0 (U1 m ρ) (a0 m hO) c).arrAt w (cfg0 (a0 m hO)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ hO c b
theorem hF0 (c : Dev nD) (w : Fin (cfg0 (a0 m hO)).W) : (dat0 (U1 m ρ) (a0 m hO) c).arrAt w (cfg0 (a0 m hO)).N = U2 m ρ hO c (Pipeline.arrRef spec0 w) :=
  (W2_arr m ρ hO c w).symm
theorem hrest0 (c : Dev nD) : ∀ b, b ∉ Finset.univ.image (Pipeline.arrRef spec0) → U2 m ρ hO c b = U1 m ρ c b :=
  fun b hb => W2_of_ne m ρ hO c b fun w e => hb (Finset.mem_image.mpr ⟨w, Finset.mem_univ _, e⟩)

/-- After the second stretch (the item gather's entry). -/
abbrev W3 : Dev nD → Valuation τ sig (Elt F) := fun c => StableHlo.after hostOps1 (W2 m ρ hO c)
abbrev U3 : (c : Dev nD) → (b : Ref sig .tc) → Buf (Elt F) ((c : Thread nD τ).loc b) := fun c b => W3 m ρ hO c b
/-- At the item gather's exit. -/
def W4 (c : Dev nD) : Valuation τ sig (Elt F) :=
  Pipeline.withArrays spec1 c (W3 m ρ hO c) fun w => (dat1 (U3 m ρ hO) (a1 m hO) c).arrAt w (cfg1 (a1 m hO)).N
theorem W4_arr (c : Dev nD) (w : Fin (cfg1 (a1 m hO)).W) :
    W4 m ρ hO c (Proc.devRef .tc (Pipeline.arrRef spec1 w)) = (dat1 (U3 m ρ hO) (a1 m hO) c).arrAt w (cfg1 (a1 m hO)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev U4 : (c : Dev nD) → (b : Ref sig .tc) → Buf (Elt F) ((c : Thread nD τ).loc b) := fun c b => W4 m ρ hO c b
theorem hF1 (c : Dev nD) (w : Fin (cfg1 (a1 m hO)).W) : (dat1 (U3 m ρ hO) (a1 m hO) c).arrAt w (cfg1 (a1 m hO)).N = U4 m ρ hO c (Pipeline.arrRef spec1 w) :=
  (W4_arr m ρ hO c w).symm
theorem hrest1 (c : Dev nD) : ∀ b, b ∉ Finset.univ.image (Pipeline.arrRef spec1) → U4 m ρ hO c b = U3 m ρ hO c b :=
  fun b hb => W4_of_ne m ρ hO c b fun w e => hb (Finset.mem_image.mpr ⟨w, Finset.mem_univ _, e⟩)

/-- After the third stretch (the product's entry). -/
abbrev W5 : Dev nD → Valuation τ sig (Elt F) := fun c => StableHlo.after hostOps2 (W4 m ρ hO c)
abbrev U5 : (c : Dev nD) → (b : Ref sig .tc) → Buf (Elt F) ((c : Thread nD τ).loc b) := fun c b => W5 m ρ hO c b
/-- At the product's exit: the program's end. -/
def W6 (c : Dev nD) : Valuation τ sig (Elt F) :=
  Pipeline.withArrays spec2 c (W5 m ρ hO c) fun w => (dat2 (U5 m ρ hO) c).arrAt w cfg2.N
theorem W6_arr (c : Dev nD) (w : Fin cfg2.W) :
    W6 m ρ hO c (Proc.devRef .tc (Pipeline.arrRef spec2 w)) = (dat2 (U5 m ρ hO) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ hO c (Proc.devRef .tc b) = W5 m ρ hO c (Proc.devRef .tc b) := by
  unfold W6; exact Pipeline.withArrays_of_ne spec2 c _ _ b hb
abbrev U6 : (c : Dev nD) → (b : Ref sig .tc) → Buf (Elt F) ((c : Thread nD τ).loc b) := fun c b => W6 m ρ hO c b
theorem hF2 (c : Dev nD) (w : Fin cfg2.W) : (dat2 (U5 m ρ hO) c).arrAt w cfg2.N = U6 m ρ hO c (Pipeline.arrRef spec2 w) :=
  (W6_arr m ρ hO c w).symm
theorem hrest2 (c : Dev nD) : ∀ b, b ∉ Finset.univ.image (Pipeline.arrRef spec2) → U6 m ρ hO c b = U5 m ρ hO c b :=
  fun b hb => W6_of_ne m ρ hO c b fun w e => hb (Finset.mem_image.mpr ⟨w, Finset.mem_univ _, e⟩)

/-! ## A buffer nothing writes keeps its launch contents -/

/-- A buffer that is no host stretch's result and no region's array holds at the end what it held at launch. -/
theorem W6_kept (c : Dev nD) (b : Ref sig .tc) (h0 : b ∉ hostOps0_W) (h1 : b ∉ hostOps1_W) (h2 : b ∉ hostOps2_W)
    (g0 : ∀ w, Pipeline.arrRef spec0 w ≠ b) (g1 : ∀ w, Pipeline.arrRef spec1 w ≠ b) (g2 : ∀ w, Pipeline.arrRef spec2 w ≠ b) :
    W6 m ρ hO c (Proc.devRef .tc b) = m ((c : Thread nD τ).loc b) :=
  calc W6 m ρ hO c (Proc.devRef .tc b)
    _ = W5 m ρ hO c (Proc.devRef .tc b) := W6_of_ne m ρ hO c b g2
    _ = W4 m ρ hO c (Proc.devRef .tc b) := StableHlo.after_of_writes_sub hostOps2 _ hostOps2_writes h2
    _ = W3 m ρ hO c (Proc.devRef .tc b) := W4_of_ne m ρ hO c b g1
    _ = W2 m ρ hO c (Proc.devRef .tc b) := StableHlo.after_of_writes_sub hostOps1 _ hostOps1_writes h1
    _ = W1 m ρ c (Proc.devRef .tc b) := W2_of_ne m ρ hO c b g0
    _ = W0 m ρ c (Proc.devRef .tc b) := StableHlo.after_of_writes_sub hostOps0 _ hostOps0_writes h0
    _ = m ((c : Thread nD τ).loc b) := rfl

/-- The user-id table at the user gather's entry is the launch table. -/
theorem U1_pre0 (c : Dev nD) (j : Fin 1) : U1 m ρ c (pre0.ref j) = tbl0 m j := by
  obtain rfl : c = 0 := Subsingleton.elim _ _
  exact (StableHlo.after_of_writes_sub hostOps0 _ hostOps0_writes (by revert j; decide)).trans rfl

/-- The item-id table at the item gather's entry is the launch table. -/
theorem U3_pre1 (c : Dev nD) (j : Fin 1) : U3 m ρ hO c (pre1.ref j) = tbl1 m j := by
  obtain rfl : c = 0 := Subsingleton.elim _ _
  exact (StableHlo.after_of_writes_sub hostOps1 _ hostOps1_writes (by revert j; decide)).trans <|
    (W2_of_ne m ρ hO 0 (pre1.ref j) (by revert j; decide)).trans <|
    (StableHlo.after_of_writes_sub hostOps0 _ hostOps0_writes (by revert j; decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) (adm m hO) p) c
  | ⟨0, _⟩ => fun c => dat0 (U1 m ρ) (a0 m hO) c
  | ⟨1, _⟩ => fun c => dat1 (U3 m ρ hO) (a1 m hO) c
  | ⟨2, _⟩ => fun c => dat2 (U5 m ρ hO) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ hO c) ∗ ∃ r, prngReg c r)

/-! ## The regions as segments -/

set_option backward.isDefEq.respectTransparency.types false in
/-- The user gather: entered from every unscoped buffer at `W1`, left at `W2`. Its arrays and its id table split
    out of the unscoped buffers and put back at the exit contents; the generator register and the table into the
    invariant and out. -/
def reg0 : Pipeline.RegionSeg (pcfgs (F := F)) (adm m hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (U1 m ρ) (a0 m hO) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ tblHeld0 (a0 m hO) c)
  Z c := Pipeline.unscopedRestP (Ix := Unit) (Name := ℕ) (U := UR sig nD τ) (Lvl := ℕ) pre0 spec0 c (U1 m ρ c)
  hentry c := by
    rw [Pipeline.ownSems0_none]
    have hsplit := Pipeline.arrays_of_unscopedBufs (p := 0) (pcfgs (F := F)) (adm m hO) (pdats m ρ hO) (launch0 (F := F)).win (launch0 (F := F)).arr_whole c
      ((pdats m ρ hO 0 c).share_full fun _ => rfl) (U1 m ρ c) fun _ => rfl
    rw [Pipeline.unscopedBufs_held, Pipeline.unscopedRest_split (launch0 (F := F)).pre c (U1 m ρ c),
      show (fun k => U1 m ρ c ((pcfgs (F := F) 0).pre.ref k)) = tbl0 m from funext (U1_pre0 m ρ c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ tblHeld0 (a0 m hO) c) from rfl]; unfold Pipeline.ΦA
    iintro ⟨Hp, Ht, Hr⟩
    isplitr [Ht]
    · isplitl [Hr]; · iexact Hr
      iexact Hp
    · iexact Ht
  hout c := by
    rw [Pipeline.ownSems0_none, show (pdats m ρ hO 0 c).Φ (Fin.last _) = iprop(Pipeline.ΦA spec0 c ∗ tblHeld0 (a0 m hO) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m ρ hO) ((pdats m ρ hO 0 c).share_full fun _ => rfl)
      (U1 m ρ c) (U2 m ρ hO c) ((pdats m ρ hO 0 c).arrAt · _) (hF0 m ρ hO c) (hrest0 m ρ hO c)
    rw [Pipeline.unscopedBufs_held] at hjoin
    rw [Pipeline.unscopedRest_split (launch0 (F := F)).pre c (U1 m ρ c),
      show (fun k => U1 m ρ c ((pcfgs (F := F) 0).pre.ref k)) = tbl0 m from funext (U1_pre0 m ρ c)] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The item gather: entered from every unscoped buffer at `W3`, left at `W4`; as the user gather. -/
def reg1 : Pipeline.RegionSeg (pcfgs (F := F)) (adm m hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (U3 m ρ hO) (a1 m hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(StableHlo.held (c : Thread nD τ) (Pipeline.ucRefs τ sig) (W4 m ρ hO c) ∗ R c)
  X c := iprop(∃ r, prngReg c r)
  Y c := iprop((∃ r, prngReg c r) ∗ tblHeld1 (a1 m hO) c)
  Z c := Pipeline.unscopedRestP (Ix := Unit) (Name := ℕ) (U := UR sig nD τ) (Lvl := ℕ) pre1 spec1 c (U3 m ρ hO c)
  hentry c := by
    rw [Pipeline.ownSems0_none]
    have hsplit := Pipeline.arrays_of_unscopedBufs (p := 1) (pcfgs (F := F)) (adm m hO) (pdats m ρ hO) (launch1 (F := F)).win (launch1 (F := F)).arr_whole c
      ((pdats m ρ hO 1 c).share_full fun _ => rfl) (U3 m ρ hO c) fun _ => rfl
    rw [Pipeline.unscopedBufs_held, Pipeline.unscopedRest_split (launch1 (F := F)).pre c (U3 m ρ hO c),
      show (fun k => U3 m ρ hO c ((pcfgs (F := F) 1).pre.ref k)) = tbl1 m from funext (U3_pre1 m ρ hO c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = iprop(Pipeline.ΦA spec1 c ∗ tblHeld1 (a1 m hO) c) from rfl]; unfold Pipeline.ΦA
    iintro ⟨Hp, Ht, Hr⟩
    isplitr [Ht]
    · isplitl [Hr]; · iexact Hr
      iexact Hp
    · iexact Ht
  hout c := by
    rw [Pipeline.ownSems0_none, show (pdats m ρ hO 1 c).Φ (Fin.last _) = iprop(Pipeline.ΦA spec1 c ∗ tblHeld1 (a1 m hO) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m ρ hO) ((pdats m ρ hO 1 c).share_full fun _ => rfl)
      (U3 m ρ hO c) (U4 m ρ hO c) ((pdats m ρ hO 1 c).arrAt · _) (hF1 m ρ hO c) (hrest1 m ρ hO c)
    rw [Pipeline.unscopedBufs_held] at hjoin
    rw [Pipeline.unscopedRest_split (launch1 (F := F)).pre c (U3 m ρ hO c),
      show (fun k => U3 m ρ hO c ((pcfgs (F := F) 1).pre.ref k)) = tbl1 m from funext (U3_pre1 m ρ hO c)] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The product: entered from every unscoped buffer at `W5`, left at `W6`, the program's end. -/
def reg2 : Pipeline.RegionSeg (pcfgs (F := F)) (adm m hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (U5 m ρ hO) c).loose
  hwaits := Pipeline.hwaits_of_owed_zero _ _ _ _ L lv 2 fun _ _ => rfl
  pre c := iprop(StableHlo.held (c : Thread nD τ) (Pipeline.ucRefs τ sig) (W5 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ hO c)
  hentry c := by
    rw [Pipeline.ownSems0_none]
    have hsplit := Pipeline.arrays_of_unscopedBufs (p := 2) (pcfgs (F := F)) (adm m hO) (pdats m ρ hO) (launch2 (F := F)).win (launch2 (F := F)).arr_whole c
      ((pdats m ρ hO 2 c).share_full fun _ => rfl) (U5 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hO 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hO) (Ix := Unit) (Name := ℕ) (U := UR sig nD τ) (Lvl := ℕ)
      (launch2 (F := F)).win (launch2 (F := F)).arr_whole c (pdats m ρ hO) ((pdats m ρ hO 2 c).share_full fun _ => rfl)
      (U5 m ρ hO c) (U6 m ρ hO c) ((pdats m ρ hO 2 c).arrAt · _) (hF2 m ρ hO c) (hrest2 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) (adm m hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO),
    .host (hseg hostOps2 hostOps2_sub hostOps2_fresh (W4 m ρ hO)),
    .region (reg2 m ρ hO) ]

theorem main_run (c : Dev nD) : main (F := F) c = Pipeline.Seg.run (segs m ρ hO) := (main_chain c).trans (by chain_rfl)

set_option backward.isDefEq.respectTransparency.types false in
/-- THE RUN. From any memory with zero counters whose id tables satisfy `Ok`, every weakly fair execution of the
    program terminates, nothing faulting, and every final state holds every unscoped buffer at the fold's last
    contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ hO c b) :=
  Pipeline.θ_run_regions_kit (pcfgs (F := F)) (adm m hO) (pdats m ρ hO) () (cellOf_inj (adm m hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ hO c) s')
      isplitl [Hh] <;> iassumption)
    (hQ := fun s h c => h c)

include hO in
/-- THE FRAME, under `Ok`: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_kept m ρ hO c main_arg0 (by decide) (by decide) (by decide) (by decide) (by decide) (by decide)),
     (h c _ (mem_uc main_arg1 (by decide))).trans (W6_kept m ρ hO c main_arg1 (by decide) (by decide) (by decide) (by decide) (by decide) (by decide)),
     (h c _ (mem_uc main_arg2 (by decide))).trans (W6_kept m ρ hO c main_arg2 (by decide) (by decide) (by decide) (by decide) (by decide) (by decide)),
     (h c _ (mem_uc main_arg3 (by decide))).trans (W6_kept m ρ hO c main_arg3 (by decide) (by decide) (by decide) (by decide) (by decide) (by decide))⟩)
    (run_main m ρ hO)

end Cert.KernelIdeal.Fr

end
-- ==== Proof.KFrameR0.lean ====
/-
  The user row-gather region, at the buffer contents `V` it is entered with and at admissible contents `a`
  of its prefetched id table. Grid point `t` of 4096 reads ONE row block [1, 1, 64] of the table array
  [1000000, 1, 64] — the row whose number is the t-th id — and writes it as row block `t` of the result
  [4096, 1, 64]: the body stores what it loaded. Stated here: each window's block at a point, what the body leaves
  in the result's staging buffer, the body's run, the region's proof data (whose invariant keeps the id table beside
  the scoped rest and the generator register) and the body obligation at every point. Everything is stated with
  the table's contents a variable, so that nothing ever evaluates them.
-/
import proofs.«117546_j12781822673306_2_alg».proof.Proof.Gen.Kernel.Launch
import proofs.«117546_j12781822673306_2_alg».proof.Proof.Gen.Kernel.Skeleton
import proofs.«117546_j12781822673306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg0 (F := F)).Adm)

/-- Window `w`'s block at point `t`, read off its array as the region finds it; for the table window a function of
    the id at `t`. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The table window's staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0 : Rect S1x1x64 := Rect.unit (s := S1x1x64) ![0, 0, 0] S1x1x64.size inb_S1x1x64_S1x1x64_0_0_0

/-- What the body leaves in the result's staging buffer: its one store, of the block it loaded. -/
def out0_1 (x0 : Vec F S1x1x64 .f32) : Vec F S1x1x64 .f32 :=
  View.canon [⟨r0, k0_pay1 (View.ld x0 r0)⟩]

/-- The store is of the whole buffer. -/
theorem cover0_1 (p0 : Vec F S1x1x64 .f32) (y : S1x1x64.Idx) :
    ∃ pc ∈ ([⟨r0, p0⟩] : List (View.Piece (Elt F) S1x1x64 .f32)), y ∈ pc.1.set :=
  View.cover_of_tiled [⟨r0, p0⟩] S1x1x64.size (by rfl) y

set_option maxHeartbeats 1000000 in
/-- The body on whole staging memrefs, the table window's at read contents `x0` and the result's at anything, runs to
    the continuation holding the table window's as it was and the result's at `out0_1 x0`; the id table's memref is
    passed to the body and never touched. -/
theorem sound_kernel0 (c : Dev nD) (E : Set ℕ) (i : grid0.Coords) (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The id table on core `c`, whole, at the contents the region runs at. -/
abbrev tblHeld0 (c : Dev nD) : sProp 𝕄 :=
  Pipeline.prefHeld (Ix := Unit) (Name := ℕ) (U := UR sig nD τ) (Lvl := ℕ) pre0 c (fun _ => fullShare) a.1

/-- The region's proof data on core `c`: the arrays as the region finds them; after the body at point `t` the table
    window's buffer at its block and the result's at that same block stored back; the invariant the scoped rest,
    the generator register and the id table; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => out0_1 (iblk0 V a c 0 t)
  Φ _ := iprop(Pipeline.ΦA spec0 c ∗ tblHeld0 a c)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = out0_1 (iblk0 V a c 0 t) := by dsimp only [dat0]; try rfl

theorem before0_0 (c : Dev nD) (t : Fin (cfg0 a).N) (d) : (dat0 V a c).before 0 t d = iblk0 V a c 0 t :=
  before0_0_of V a (dat0 V a c) (A_eq0 V a c 0) (after0_0 V a c) t d

/-- Each window's current staging memref at point `t`, spelled as the pipeline passes it, and its wholeness. -/
abbrev ms0_0 (t : Fin (cfg0 a).N) : Memref sig .tc .vmem S1x1x64 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S1x1x64 .f32 := spec0_1.stage ((cfg0 a).slots t 1)
abbrev hs0_1 (t : Fin (cfg0 a).N) : (ms0_1 a t).IsWhole := hstage0_1 (((cfg0 a).slots t 1).cast nbuf0_1)

/-- The kernel body at point `t`, on what the pipeline calls it with. -/
abbrev bodyAt0 (t : Fin (cfg0 a).N) : Prog (TpuEff nD τ sig (Elt F) Λ₀ .tc) PUnit :=
  cc0__gather_kernel (grid0.coords t) (Memref.whole main_arg2) (Memref.isWhole_whole _) (ms0_0 a t) (hs0_0 a t) (ms0_1 a t) (hs0_1 a t)

/-- What the body is called with at point `t`, -/
def bodyPre0 (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before 0 t d))
    ∗ (∃ d, owns (c : Thread nD τ) (ms0_1 a t) fullShare ((dat0 V a c).before 1 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (ms0_0 a t) fullShare ((dat0 V a c).after 0 t)
    ∗ owns (c : Thread nD τ) (ms0_1 a t) fullShare ((dat0 V a c).after 1 t))

/-- The body at any point: the table window's memref holds its block, so the run applies; the invariant and the
    core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0]
  rw [show (dat0 V a c).Φ t.succ = (dat0 V a c).Φ t.castSucc from rfl,
    show (dat0 V a c).owesAt () t.succ = (dat0 V a c).owesAt () t.castSucc from rfl,
    after0_0, after0_1]
  iintro ⟨HΦ, Ho, ⟨%d0, H0⟩, ⟨%d1, H1⟩⟩
  iapply (sound_kernel0 c Set.univ _ _ _ _ _ _ _ (iblk0 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V a c) (defs₀ (F := F)) Variants.none () Set.univ := fun t => by
  rw [bigSep_W0, bigSep_W0]
  exact sound_body0 V a c t

end Cert.Kernel.Fr

end
-- ==== Proof.KFrameR1.lean ====
/-
  The item row-gather region, at the buffer contents `V` it is entered with and at admissible contents `a`
  of its prefetched id table. Grid point `t` of 4096 reads ONE row block [1, 1, 64] of the table array
  [100000, 1, 64] — the row whose number is the t-th id — and writes it as row block `t` of the result
  [4096, 1, 64]: the body stores what it loaded. Stated here: each window's block at a point, what the body leaves
  in the result's staging buffer, the body's run, the region's proof data (whose invariant keeps the id table beside
  the scoped rest and the generator register) and the body obligation at every point. Everything is stated with
  the table's contents a variable, so that nothing ever evaluates them.
-/
import proofs.«117546_j12781822673306_2_alg».proof.Proof.Gen.Kernel.Launch
import proofs.«117546_j12781822673306_2_alg».proof.Proof.Gen.Kernel.Skeleton
import proofs.«117546_j12781822673306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-- Window `w`'s block at point `t`, read off its array as the region finds it; for the table window a function of
    the id at `t`. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The table window's staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1 : Rect S1x1x64 := Rect.unit (s := S1x1x64) ![0, 0, 0] S1x1x64.size inb_S1x1x64_S1x1x64_0_0_0

/-- What the body leaves in the result's staging buffer: its one store, of the block it loaded. -/
def out1_1 (x0 : Vec F S1x1x64 .f32) : Vec F S1x1x64 .f32 :=
  View.canon [⟨r1, k1_pay1 (View.ld x0 r1)⟩]

/-- The store is of the whole buffer. -/
theorem cover1_1 (p0 : Vec F S1x1x64 .f32) (y : S1x1x64.Idx) :
    ∃ pc ∈ ([⟨r1, p0⟩] : List (View.Piece (Elt F) S1x1x64 .f32)), y ∈ pc.1.set :=
  View.cover_of_tiled [⟨r1, p0⟩] S1x1x64.size (by rfl) y

set_option maxHeartbeats 1000000 in
/-- The body on whole staging memrefs, the table window's at read contents `x0` and the result's at anything, runs to
    the continuation holding the table window's as it was and the result's at `out1_1 x0`; the id table's memref is
    passed to the body and never touched. -/
theorem sound_kernel1 (c : Dev nD) (E : Set ℕ) (i : grid1.Coords) (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The id table on core `c`, whole, at the contents the region runs at. -/
abbrev tblHeld1 (c : Dev nD) : sProp 𝕄 :=
  Pipeline.prefHeld (Ix := Unit) (Name := ℕ) (U := UR sig nD τ) (Lvl := ℕ) pre1 c (fun _ => fullShare) a.1

/-- The region's proof data on core `c`: the arrays as the region finds them; after the body at point `t` the table
    window's buffer at its block and the result's at that same block stored back; the invariant the scoped rest,
    the generator register and the id table; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => out1_1 (iblk1 V a c 0 t)
  Φ _ := iprop(Pipeline.ΦA spec1 c ∗ tblHeld1 a c)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = out1_1 (iblk1 V a c 0 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d

/-- Each window's current staging memref at point `t`, spelled as the pipeline passes it, and its wholeness. -/
abbrev ms1_0 (t : Fin (cfg1 a).N) : Memref sig .tc .vmem S1x1x64 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x1x64 .f32 := spec1_1.stage ((cfg1 a).slots t 1)
abbrev hs1_1 (t : Fin (cfg1 a).N) : (ms1_1 a t).IsWhole := hstage1_1 (((cfg1 a).slots t 1).cast nbuf1_1)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_arg3) (Memref.isWhole_whole _) (ms1_0 a t) (hs1_0 a t) (ms1_1 a t) (hs1_1 a t)

/-- What the body is called with at point `t`, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t))

/-- The body at any point: the table window's memref holds its block, so the run applies; the invariant and the
    core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.succ = (dat1 V a c).Φ t.castSucc from rfl,
    show (dat1 V a c).owesAt () t.succ = (dat1 V a c).owesAt () t.castSucc from rfl,
    after1_0, after1_1]
  iintro ⟨HΦ, Ho, ⟨%d0, H0⟩, ⟨%d1, H1⟩⟩
  iapply (sound_kernel1 c Set.univ _ _ _ _ _ _ _ (iblk1 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V a c) (defs₀ (F := F)) Variants.none () Set.univ := fun t => by
  rw [bigSep_W1, bigSep_W1]
  exact sound_body1 V a c t

end Cert.Kernel.Fr

end
-- ==== Proof.KFrameR2.lean ====
/-
  The product kernel's region, at the buffer contents `V` it is entered with. Grid point `t` of 8 reads rows
  512·t … 512·t + 511 of the left operand [4096, 64] and the whole right operand [64, 4096], and writes the
  512 × 4096 product into the same rows of the result. Stated here: each window's block at a point, what the body
  leaves in the result's staging buffer (its one store, of the product of the two loaded blocks), the body's run,
  the region's proof data and the body obligation at every point.
-/
import proofs.«117546_j12781822673306_2_alg».proof.Proof.Gen.Kernel.Launch
import proofs.«117546_j12781822673306_2_alg».proof.Proof.Gen.Kernel.Skeleton
import proofs.«117546_j12781822673306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its (one) block at every point, though it is fetched only once. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x64 := Rect.unit (s := S512x64) ![0, 0] S512x64.size inb_S512x64_S512x64_0_0
abbrev r2_1 : Rect S64x4096 := Rect.unit (s := S64x4096) ![0, 0] S64x4096.size inb_S64x4096_S64x4096_0_0
abbrev r2_2 : Rect S512x4096 := Rect.unit (s := S512x4096) ![0, 0] S512x4096.size inb_S512x4096_S512x4096_0_0

/-- What the body leaves in the result's staging buffer: its one store, of the product of the two loaded blocks. -/
def out2_2 (x0 : Vec F S512x64 .bf16) (x1 : Vec F S64x4096 .bf16) : Vec F S512x4096 .f32 :=
  View.canon [⟨r2_2, k2_pay1 (View.ld x0 r2_0) (View.ld x1 r2_1)⟩]

/-- The store is of the whole buffer. -/
theorem cover2_2 (p0 : Vec F S512x4096 .f32) (y : S512x4096.Idx) :
    ∃ pc ∈ ([⟨r2_2, p0⟩] : List (View.Piece (Elt F) S512x4096 .f32)), y ∈ pc.1.set :=
  View.cover_of_tiled [⟨r2_2, p0⟩] S512x4096.size (by rfl) y

set_option maxHeartbeats 1000000 in
/-- The body on whole staging memrefs, the operands' at read contents `x0`, `x1` and the result's at anything, runs to
    the continuation holding the operands' as they were and the result's at `out2_2 x0 x1`. -/
theorem sound_kernel2 (c : Dev nD) (E : Set ℕ) (i : grid2.Coords) (arg1 : Memref sig .tc .vmem S512x64 .bf16) (harg1 : arg1.IsWhole)
    (arg2 : Memref sig .tc .vmem S64x4096 .bf16) (harg2 : arg2.IsWhole) (arg3 : Memref sig .tc .vmem S512x4096 .f32) (harg3 : arg3.IsWhole)
    (x0 : Vec F S512x64 .bf16) (x1 : Vec F S64x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each
    operand's buffer at its block and the result's at the product of the two blocks; the invariant the scoped rest
    and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrameRun.lean ====
/-
  The whole program's run. Its body is three regions among stretches of host reshapes, a transpose and format
  changes. The buffer contents at every boundary are a fold from the launch memory: a host stretch applies its
  operations, a region leaves its result array at what its write-backs leave and every other buffer as it found it.
  The two gather regions read their block numbers from id tables, which no part of the program writes: the tables'
  contents are read off the launch memory once, the regions' side condition on them (every named row block inside
  its table array) is the hypothesis `Ok`, and the regions run at those contents. Each region is a record over the
  thread state "every unscoped buffer at the boundary's contents, the generator register at some state, nothing
  owed"; a gather region takes its id table out of the unscoped buffers at entry, keeps it in its invariant, and puts
  it back at exit. The run's post names every unscoped buffer's final contents.
-/
import proofs.«117546_j12781822673306_2_alg».proof.Proof.Gen.Kernel.Launch
import proofs.«117546_j12781822673306_2_alg».proof.Proof.Gen.Kernel.Skeleton
import proofs.«117546_j12781822673306_2_alg».proof.Proof.Gen.Kernel.Points
import proofs.«117546_j12781822673306_2_alg».proof.Proof.Gen.Kernel.Regions
import proofs.«117546_j12781822673306_2_alg».proof.Proof.KFrameR0
import proofs.«117546_j12781822673306_2_alg».proof.Proof.KFrameR1
import proofs.«117546_j12781822673306_2_alg».proof.Proof.KFrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The id tables, read off the launch memory -/

/-- The user-id table's contents at launch (one device: device 0's). -/
def tbl0 : pre0.Contents (Elt F) := fun j => m (((0 : Dev nD) : Thread nD τ).loc (pre0.ref j))
/-- The item-id table's contents at launch. -/
def tbl1 : pre1.Contents (Elt F) := fun j => m (((0 : Dev nD) : Thread nD τ).loc (pre1.ref j))

/-- The regions' side condition on the tables: every row block an id names lies inside its table array. -/
def Ok : Prop := ok0 (F := F) (tbl0 m) ∧ ok1 (F := F) (tbl1 m)

variable (hO : Ok m)

/-- The tables' contents as admissible contents of each pipeline (the product region has no table). -/
def adm : (p : Fin 3) → (pcfgs (F := F) p).Adm
  | ⟨0, _⟩ => ⟨tbl0 m, hO.1⟩
  | ⟨1, _⟩ => ⟨tbl1 m, hO.2⟩
  | ⟨2, _⟩ => cfg2.toPCfg_adm

abbrev a0 : (pcfg0 (F := F)).Adm := ⟨tbl0 m, hO.1⟩
abbrev a1 : (pcfg1 (F := F)).Adm := ⟨tbl1 m, hO.2⟩

/-! ## The buffer contents at each boundary -/

/-- Core `c`'s buffers at launch. -/
abbrev W0 : Dev nD → Valuation τ sig (Elt F) := fun c b => (s₀ m ρ).mem ((c : Dev nD), b)
/-- After the first reshape (the user gather's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the user gather's exit: its arrays at what the pipeline leaves, every other buffer as entered. -/
def W2 (c : Dev nD) : Valuation τ sig (Elt F) :=
  Pipeline.withArrays spec0 c (W1 m ρ c) fun w => (dat0 (U1 m ρ) (a0 m hO) c).arrAt w (cfg0 (a0 m hO)).N
theorem W2_arr (c : Dev nD) (w : Fin (cfg0 (a0 m hO)).W) :
    W2 m ρ hO c (Proc.devRef .tc (Pipeline.arrRef spec0 w)) = (dat0 (U1 m ρ) (a0 m hO) c).arrAt w (cfg0 (a0 m hO)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ hO c b
theorem hF0 (c : Dev nD) (w : Fin (cfg0 (a0 m hO)).W) : (dat0 (U1 m ρ) (a0 m hO) c).arrAt w (cfg0 (a0 m hO)).N = U2 m ρ hO c (Pipeline.arrRef spec0 w) :=
  (W2_arr m ρ hO c w).symm
theorem hrest0 (c : Dev nD) : ∀ b, b ∉ Finset.univ.image (Pipeline.arrRef spec0) → U2 m ρ hO c b = U1 m ρ c b :=
  fun b hb => W2_of_ne m ρ hO c b fun w e => hb (Finset.mem_image.mpr ⟨w, Finset.mem_univ _, e⟩)

/-- After the second stretch (the item gather's entry). -/
abbrev W3 : Dev nD → Valuation τ sig (Elt F) := fun c => StableHlo.after hostOps1 (W2 m ρ hO c)
abbrev U3 : (c : Dev nD) → (b : Ref sig .tc) → Buf (Elt F) ((c : Thread nD τ).loc b) := fun c b => W3 m ρ hO c b
/-- At the item gather's exit. -/
def W4 (c : Dev nD) : Valuation τ sig (Elt F) :=
  Pipeline.withArrays spec1 c (W3 m ρ hO c) fun w => (dat1 (U3 m ρ hO) (a1 m hO) c).arrAt w (cfg1 (a1 m hO)).N
theorem W4_arr (c : Dev nD) (w : Fin (cfg1 (a1 m hO)).W) :
    W4 m ρ hO c (Proc.devRef .tc (Pipeline.arrRef spec1 w)) = (dat1 (U3 m ρ hO) (a1 m hO) c).arrAt w (cfg1 (a1 m hO)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev U4 : (c : Dev nD) → (b : Ref sig .tc) → Buf (Elt F) ((c : Thread nD τ).loc b) := fun c b => W4 m ρ hO c b
theorem hF1 (c : Dev nD) (w : Fin (cfg1 (a1 m hO)).W) : (dat1 (U3 m ρ hO) (a1 m hO) c).arrAt w (cfg1 (a1 m hO)).N = U4 m ρ hO c (Pipeline.arrRef spec1 w) :=
  (W4_arr m ρ hO c w).symm
theorem hrest1 (c : Dev nD) : ∀ b, b ∉ Finset.univ.image (Pipeline.arrRef spec1) → U4 m ρ hO c b = U3 m ρ hO c b :=
  fun b hb => W4_of_ne m ρ hO c b fun w e => hb (Finset.mem_image.mpr ⟨w, Finset.mem_univ _, e⟩)

/-- After the third stretch (the product's entry). -/
abbrev W5 : Dev nD → Valuation τ sig (Elt F) := fun c => StableHlo.after hostOps2 (W4 m ρ hO c)
abbrev U5 : (c : Dev nD) → (b : Ref sig .tc) → Buf (Elt F) ((c : Thread nD τ).loc b) := fun c b => W5 m ρ hO c b
/-- At the product's exit: the program's end. -/
def W6 (c : Dev nD) : Valuation τ sig (Elt F) :=
  Pipeline.withArrays spec2 c (W5 m ρ hO c) fun w => (dat2 (U5 m ρ hO) c).arrAt w cfg2.N
theorem W6_arr (c : Dev nD) (w : Fin cfg2.W) :
    W6 m ρ hO c (Proc.devRef .tc (Pipeline.arrRef spec2 w)) = (dat2 (U5 m ρ hO) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ hO c (Proc.devRef .tc b) = W5 m ρ hO c (Proc.devRef .tc b) := by
  unfold W6; exact Pipeline.withArrays_of_ne spec2 c _ _ b hb
abbrev U6 : (c : Dev nD) → (b : Ref sig .tc) → Buf (Elt F) ((c : Thread nD τ).loc b) := fun c b => W6 m ρ hO c b
theorem hF2 (c : Dev nD) (w : Fin cfg2.W) : (dat2 (U5 m ρ hO) c).arrAt w cfg2.N = U6 m ρ hO c (Pipeline.arrRef spec2 w) :=
  (W6_arr m ρ hO c w).symm
theorem hrest2 (c : Dev nD) : ∀ b, b ∉ Finset.univ.image (Pipeline.arrRef spec2) → U6 m ρ hO c b = U5 m ρ hO c b :=
  fun b hb => W6_of_ne m ρ hO c b fun w e => hb (Finset.mem_image.mpr ⟨w, Finset.mem_univ _, e⟩)

/-! ## A buffer nothing writes keeps its launch contents -/

/-- A buffer that is no host stretch's result and no region's array holds at the end what it held at launch. -/
theorem W6_kept (c : Dev nD) (b : Ref sig .tc) (h0 : b ∉ hostOps0_W) (h1 : b ∉ hostOps1_W) (h2 : b ∉ hostOps2_W)
    (g0 : ∀ w, Pipeline.arrRef spec0 w ≠ b) (g1 : ∀ w, Pipeline.arrRef spec1 w ≠ b) (g2 : ∀ w, Pipeline.arrRef spec2 w ≠ b) :
    W6 m ρ hO c (Proc.devRef .tc b) = m ((c : Thread nD τ).loc b) :=
  calc W6 m ρ hO c (Proc.devRef .tc b)
    _ = W5 m ρ hO c (Proc.devRef .tc b) := W6_of_ne m ρ hO c b g2
    _ = W4 m ρ hO c (Proc.devRef .tc b) := StableHlo.after_of_writes_sub hostOps2 _ hostOps2_writes h2
    _ = W3 m ρ hO c (Proc.devRef .tc b) := W4_of_ne m ρ hO c b g1
    _ = W2 m ρ hO c (Proc.devRef .tc b) := StableHlo.after_of_writes_sub hostOps1 _ hostOps1_writes h1
    _ = W1 m ρ c (Proc.devRef .tc b) := W2_of_ne m ρ hO c b g0
    _ = W0 m ρ c (Proc.devRef .tc b) := StableHlo.after_of_writes_sub hostOps0 _ hostOps0_writes h0
    _ = m ((c : Thread nD τ).loc b) := rfl

/-- The user-id table at the user gather's entry is the launch table. -/
theorem U1_pre0 (c : Dev nD) (j : Fin 1) : U1 m ρ c (pre0.ref j) = tbl0 m j := by
  obtain rfl : c = 0 := Subsingleton.elim _ _
  exact (StableHlo.after_of_writes_sub hostOps0 _ hostOps0_writes (by revert j; decide)).trans rfl

/-- The item-id table at the item gather's entry is the launch table. -/
theorem U3_pre1 (c : Dev nD) (j : Fin 1) : U3 m ρ hO c (pre1.ref j) = tbl1 m j := by
  obtain rfl : c = 0 := Subsingleton.elim _ _
  exact (StableHlo.after_of_writes_sub hostOps1 _ hostOps1_writes (by revert j; decide)).trans <|
    (W2_of_ne m ρ hO 0 (pre1.ref j) (by revert j; decide)).trans <|
    (StableHlo.after_of_writes_sub hostOps0 _ hostOps0_writes (by revert j; decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) (adm m hO) p) c
  | ⟨0, _⟩ => fun c => dat0 (U1 m ρ) (a0 m hO) c
  | ⟨1, _⟩ => fun c => dat1 (U3 m ρ hO) (a1 m hO) c
  | ⟨2, _⟩ => fun c => dat2 (U5 m ρ hO) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ hO c) ∗ ∃ r, prngReg c r)

/-! ## The regions as segments -/

set_option backward.isDefEq.respectTransparency.types false in
/-- The user gather: entered from every unscoped buffer at `W1`, left at `W2`. Its arrays and its id table split
    out of the unscoped buffers and put back at the exit contents; the generator register and the table into the
    invariant and out. -/
def reg0 : Pipeline.RegionSeg (pcfgs (F := F)) (adm m hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (U1 m ρ) (a0 m hO) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ tblHeld0 (a0 m hO) c)
  Z c := Pipeline.unscopedRestP (Ix := Unit) (Name := ℕ) (U := UR sig nD τ) (Lvl := ℕ) pre0 spec0 c (U1 m ρ c)
  hentry c := by
    rw [Pipeline.ownSems0_none]
    have hsplit := Pipeline.arrays_of_unscopedBufs (p := 0) (pcfgs (F := F)) (adm m hO) (pdats m ρ hO) (launch0 (F := F)).win (launch0 (F := F)).arr_whole c
      ((pdats m ρ hO 0 c).share_full fun _ => rfl) (U1 m ρ c) fun _ => rfl
    rw [Pipeline.unscopedBufs_held, Pipeline.unscopedRest_split (launch0 (F := F)).pre c (U1 m ρ c),
      show (fun k => U1 m ρ c ((pcfgs (F := F) 0).pre.ref k)) = tbl0 m from funext (U1_pre0 m ρ c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ tblHeld0 (a0 m hO) c) from rfl]; unfold Pipeline.ΦA
    iintro ⟨Hp, Ht, Hr⟩
    isplitr [Ht]
    · isplitl [Hr]; · iexact Hr
      iexact Hp
    · iexact Ht
  hout c := by
    rw [Pipeline.ownSems0_none, show (pdats m ρ hO 0 c).Φ (Fin.last _) = iprop(Pipeline.ΦA spec0 c ∗ tblHeld0 (a0 m hO) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m ρ hO) ((pdats m ρ hO 0 c).share_full fun _ => rfl)
      (U1 m ρ c) (U2 m ρ hO c) ((pdats m ρ hO 0 c).arrAt · _) (hF0 m ρ hO c) (hrest0 m ρ hO c)
    rw [Pipeline.unscopedBufs_held] at hjoin
    rw [Pipeline.unscopedRest_split (launch0 (F := F)).pre c (U1 m ρ c),
      show (fun k => U1 m ρ c ((pcfgs (F := F) 0).pre.ref k)) = tbl0 m from funext (U1_pre0 m ρ c)] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The item gather: entered from every unscoped buffer at `W3`, left at `W4`; as the user gather. -/
def reg1 : Pipeline.RegionSeg (pcfgs (F := F)) (adm m hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (U3 m ρ hO) (a1 m hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(StableHlo.held (c : Thread nD τ) (Pipeline.ucRefs τ sig) (W4 m ρ hO c) ∗ R c)
  X c := iprop(∃ r, prngReg c r)
  Y c := iprop((∃ r, prngReg c r) ∗ tblHeld1 (a1 m hO) c)
  Z c := Pipeline.unscopedRestP (Ix := Unit) (Name := ℕ) (U := UR sig nD τ) (Lvl := ℕ) pre1 spec1 c (U3 m ρ hO c)
  hentry c := by
    rw [Pipeline.ownSems0_none]
    have hsplit := Pipeline.arrays_of_unscopedBufs (p := 1) (pcfgs (F := F)) (adm m hO) (pdats m ρ hO) (launch1 (F := F)).win (launch1 (F := F)).arr_whole c
      ((pdats m ρ hO 1 c).share_full fun _ => rfl) (U3 m ρ hO c) fun _ => rfl
    rw [Pipeline.unscopedBufs_held, Pipeline.unscopedRest_split (launch1 (F := F)).pre c (U3 m ρ hO c),
      show (fun k => U3 m ρ hO c ((pcfgs (F := F) 1).pre.ref k)) = tbl1 m from funext (U3_pre1 m ρ hO c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = iprop(Pipeline.ΦA spec1 c ∗ tblHeld1 (a1 m hO) c) from rfl]; unfold Pipeline.ΦA
    iintro ⟨Hp, Ht, Hr⟩
    isplitr [Ht]
    · isplitl [Hr]; · iexact Hr
      iexact Hp
    · iexact Ht
  hout c := by
    rw [Pipeline.ownSems0_none, show (pdats m ρ hO 1 c).Φ (Fin.last _) = iprop(Pipeline.ΦA spec1 c ∗ tblHeld1 (a1 m hO) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m ρ hO) ((pdats m ρ hO 1 c).share_full fun _ => rfl)
      (U3 m ρ hO c) (U4 m ρ hO c) ((pdats m ρ hO 1 c).arrAt · _) (hF1 m ρ hO c) (hrest1 m ρ hO c)
    rw [Pipeline.unscopedBufs_held] at hjoin
    rw [Pipeline.unscopedRest_split (launch1 (F := F)).pre c (U3 m ρ hO c),
      show (fun k => U3 m ρ hO c ((pcfgs (F := F) 1).pre.ref k)) = tbl1 m from funext (U3_pre1 m ρ hO c)] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The product: entered from every unscoped buffer at `W5`, left at `W6`, the program's end. -/
def reg2 : Pipeline.RegionSeg (pcfgs (F := F)) (adm m hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (U5 m ρ hO) c).loose
  hwaits := Pipeline.hwaits_of_owed_zero _ _ _ _ L lv 2 fun _ _ => rfl
  pre c := iprop(StableHlo.held (c : Thread nD τ) (Pipeline.ucRefs τ sig) (W5 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ hO c)
  hentry c := by
    rw [Pipeline.ownSems0_none]
    have hsplit := Pipeline.arrays_of_unscopedBufs (p := 2) (pcfgs (F := F)) (adm m hO) (pdats m ρ hO) (launch2 (F := F)).win (launch2 (F := F)).arr_whole c
      ((pdats m ρ hO 2 c).share_full fun _ => rfl) (U5 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hO 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hO) (Ix := Unit) (Name := ℕ) (U := UR sig nD τ) (Lvl := ℕ)
      (launch2 (F := F)).win (launch2 (F := F)).arr_whole c (pdats m ρ hO) ((pdats m ρ hO 2 c).share_full fun _ => rfl)
      (U5 m ρ hO c) (U6 m ρ hO c) ((pdats m ρ hO 2 c).arrAt · _) (hF2 m ρ hO c) (hrest2 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) (adm m hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO),
    .host (hseg hostOps2 hostOps2_sub hostOps2_fresh (W4 m ρ hO)),
    .region (reg2 m ρ hO) ]

theorem main_run (c : Dev nD) : main (F := F) c = Pipeline.Seg.run (segs m ρ hO) := (main_chain c).trans (by chain_rfl)

set_option backward.isDefEq.respectTransparency.types false in
/-- THE RUN. From any memory with zero counters whose id tables satisfy `Ok`, every weakly fair execution of the
    program terminates, nothing faulting, and every final state holds every unscoped buffer at the fold's last
    contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ hO c b) :=
  Pipeline.θ_run_regions_kit (pcfgs (F := F)) (adm m hO) (pdats m ρ hO) () (cellOf_inj (adm m hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ hO c) s')
      isplitl [Hh] <;> iassumption)
    (hQ := fun s h c => h c)

include hO in
/-- THE FRAME, under `Ok`: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_kept m ρ hO c main_arg0 (by decide) (by decide) (by decide) (by decide) (by decide) (by decide)),
     (h c _ (mem_uc main_arg1 (by decide))).trans (W6_kept m ρ hO c main_arg1 (by decide) (by decide) (by decide) (by decide) (by decide) (by decide)),
     (h c _ (mem_uc main_arg2 (by decide))).trans (W6_kept m ρ hO c main_arg2 (by decide) (by decide) (by decide) (by decide) (by decide) (by decide)),
     (h c _ (mem_uc main_arg3 (by decide))).trans (W6_kept m ρ hO c main_arg3 (by decide) (by decide) (by decide) (by decide) (by decide) (by decide))⟩)
    (run_main m ρ hO)

end Cert.Kernel.Fr

end
-- ==== Proof.OkOfIds.lean ====
/-
  The regions' side condition from a bound on the ids. A gather's table window at grid point `i` names the row
  block whose number is the i-th id word read unsigned; its block [1, 1, 64] lies inside the table array
  [n, 1, 64] exactly when that number is below `n`. So if every user id is below 1000000 and every item id below
  100000, both side conditions hold.
-/
import proofs.«117546_j12781822673306_2_alg».proof.Proof.FrameRun
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The user table window's block number at grid point `i` is the i-th user id word, read unsigned. -/
theorem word_at0 (pf : pre0.Contents (Elt F)) (i : grid0.Coords) :
    cc0_transform_0 k0_off1_inb numel1_S1 pf i 0 = ((pf 0 : IVec S4096 32) (ValueIdx.ix1 (i 0))).toNat := by
  show (pf.at 0 (Rect.unit (s := S4096) ![(Scalar.indexCast (BitVec.ofNat 32 (i 0).val)).toNat] S1.size (k0_off1_inb i)) numel1_S1).toNat = _
  refine congrArg BitVec.toNat (congrArg (pf 0) ?_)
  funext a
  apply Fin.ext
  match a with
  | ⟨0, _⟩ =>
    have hlt : (i 0).val < 4096 := (i 0).isLt
    show (BitVec.ofNat 32 (i 0).val).toNat + 1 * 0 = (i 0).val
    rw [BitVec.toNat_ofNat]; omega

/-- The item table window's block number at grid point `i` is the i-th item id word, read unsigned. -/
theorem word_at1 (pf : pre1.Contents (Elt F)) (i : grid1.Coords) :
    cc1_transform_0 k1_off1_inb numel1_S1 pf i 0 = ((pf 0 : IVec S4096 32) (ValueIdx.ix1 (i 0))).toNat := by
  show (pf.at 0 (Rect.unit (s := S4096) ![(Scalar.indexCast (BitVec.ofNat 32 (i 0).val)).toNat] S1.size (k1_off1_inb i)) numel1_S1).toNat = _
  refine congrArg BitVec.toNat (congrArg (pf 0) ?_)
  funext a
  apply Fin.ext
  match a with
  | ⟨0, _⟩ =>
    have hlt : (i 0).val < 4096 := (i 0).isLt
    show (BitVec.ofNat 32 (i 0).val).toNat + 1 * 0 = (i 0).val
    rw [BitVec.toNat_ofNat]; omega

/-- Ids in range make both regions' side conditions hold. -/
theorem ok_of_ids (m : (ℓ : Loc nD τ sig) → Buf (Elt F) ℓ)
    (hu : ∀ i : Fin 4096, ((m (((0 : Dev nD) : Thread nD τ).loc main_arg2) : IVec S4096 32) (ValueIdx.ix1 i)).toNat < 1000000)
    (hi : ∀ i : Fin 4096, ((m (((0 : Dev nD) : Thread nD τ).loc main_arg3) : IVec S4096 32) (ValueIdx.ix1 i)).toNat < 100000) : Ok m := by
  refine ⟨fun i => ⟨fun a => ?_, .inl rfl⟩, fun i => ⟨fun a => ?_, .inl rfl⟩⟩
  · match a with
    | ⟨0, _⟩ =>
      show (cc0_transform_0 k0_off1_inb numel1_S1 (tbl0 m) i 0 + 1) * 1 ≤ 1000000
      rw [word_at0]
      have := hu (i 0)
      show (((m (((0 : Dev nD) : Thread nD τ).loc main_arg2) : IVec S4096 32) (ValueIdx.ix1 (i 0))).toNat + 1) * 1 ≤ 1000000
      omega
    | ⟨1, _⟩ => show (0 + 1) * 1 ≤ 1; omega
    | ⟨2, _⟩ => show (0 + 1) * 64 ≤ 64; omega
  · match a with
    | ⟨0, _⟩ =>
      show (cc1_transform_0 k1_off1_inb numel1_S1 (tbl1 m) i 0 + 1) * 1 ≤ 100000
      rw [word_at1]
      have := hi (i 0)
      show (((m (((0 : Dev nD) : Thread nD τ).loc main_arg3) : IVec S4096 32) (ValueIdx.ix1 (i 0))).toNat + 1) * 1 ≤ 100000
      omega
    | ⟨1, _⟩ => show (0 + 1) * 1 ≤ 1; omega
    | ⟨2, _⟩ => show (0 + 1) * 64 ≤ 64; omega

end Cert.KernelIdeal.Fr

end
-- ==== Proof.KOkOfIds.lean ====
/-
  The regions' side condition from a bound on the ids. A gather's table window at grid point `i` names the row
  block whose number is the i-th id word read unsigned; its block [1, 1, 64] lies inside the table array
  [n, 1, 64] exactly when that number is below `n`. So if every user id is below 1000000 and every item id below
  100000, both side conditions hold.
-/
import proofs.«117546_j12781822673306_2_alg».proof.Proof.KFrameRun
import Idealize.ShloMosaic.Lib.ValueIdx

set_option maxRecDepth 16384

noncomputable section

namespace Cert.Kernel.Fr

open Cert.Kernel Cert.Kernel.Gen
open Idealize.ShloMosaic Idealize.ShloMosaic.TcCoe Idealize.ShloMosaic.ValueIdx
open Idealize.SL Idealize.SL.Sem

variable {F : FTy → Type} [FloatOps F]

/-- The user table window's block number at grid point `i` is the i-th user id word, read unsigned. -/
theorem word_at0 (pf : pre0.Contents (Elt F)) (i : grid0.Coords) :
    cc0_transform_0 k0_off1_inb numel1_S1 pf i 0 = ((pf 0 : IVec S4096 32) (ValueIdx.ix1 (i 0))).toNat := by
  show (pf.at 0 (Rect.unit (s := S4096) ![(Scalar.indexCast (BitVec.ofNat 32 (i 0).val)).toNat] S1.size (k0_off1_inb i)) numel1_S1).toNat = _
  refine congrArg BitVec.toNat (congrArg (pf 0) ?_)
  funext a
  apply Fin.ext
  match a with
  | ⟨0, _⟩ =>
    have hlt : (i 0).val < 4096 := (i 0).isLt
    show (BitVec.ofNat 32 (i 0).val).toNat + 1 * 0 = (i 0).val
    rw [BitVec.toNat_ofNat]; omega

/-- The item table window's block number at grid point `i` is the i-th item id word, read unsigned. -/
theorem word_at1 (pf : pre1.Contents (Elt F)) (i : grid1.Coords) :
    cc1_transform_0 k1_off1_inb numel1_S1 pf i 0 = ((pf 0 : IVec S4096 32) (ValueIdx.ix1 (i 0))).toNat := by
  show (pf.at 0 (Rect.unit (s := S4096) ![(Scalar.indexCast (BitVec.ofNat 32 (i 0).val)).toNat] S1.size (k1_off1_inb i)) numel1_S1).toNat = _
  refine congrArg BitVec.toNat (congrArg (pf 0) ?_)
  funext a
  apply Fin.ext
  match a with
  | ⟨0, _⟩ =>
    have hlt : (i 0).val < 4096 := (i 0).isLt
    show (BitVec.ofNat 32 (i 0).val).toNat + 1 * 0 = (i 0).val
    rw [BitVec.toNat_ofNat]; omega

/-- Ids in range make both regions' side conditions hold. -/
theorem ok_of_ids (m : (ℓ : Loc nD τ sig) → Buf (Elt F) ℓ)
    (hu : ∀ i : Fin 4096, ((m (((0 : Dev nD) : Thread nD τ).loc main_arg2) : IVec S4096 32) (ValueIdx.ix1 i)).toNat < 1000000)
    (hi : ∀ i : Fin 4096, ((m (((0 : Dev nD) : Thread nD τ).loc main_arg3) : IVec S4096 32) (ValueIdx.ix1 i)).toNat < 100000) : Ok m := by
  refine ⟨fun i => ⟨fun a => ?_, .inl rfl⟩, fun i => ⟨fun a => ?_, .inl rfl⟩⟩
  · match a with
    | ⟨0, _⟩ =>
      show (cc0_transform_0 k0_off1_inb numel1_S1 (tbl0 m) i 0 + 1) * 1 ≤ 1000000
      rw [word_at0]
      have := hu (i 0)
      show (((m (((0 : Dev nD) : Thread nD τ).loc main_arg2) : IVec S4096 32) (ValueIdx.ix1 (i 0))).toNat + 1) * 1 ≤ 1000000
      omega
    | ⟨1, _⟩ => show (0 + 1) * 1 ≤ 1; omega
    | ⟨2, _⟩ => show (0 + 1) * 64 ≤ 64; omega
  · match a with
    | ⟨0, _⟩ =>
      show (cc1_transform_0 k1_off1_inb numel1_S1 (tbl1 m) i 0 + 1) * 1 ≤ 100000
      rw [word_at1]
      have := hi (i 0)
      show (((m (((0 : Dev nD) : Thread nD τ).loc main_arg3) : IVec S4096 32) (ValueIdx.ix1 (i 0))).toNat + 1) * 1 ≤ 100000
      omega
    | ⟨1, _⟩ => show (0 + 1) * 1 ≤ 1; omega
    | ⟨2, _⟩ => show (0 + 1) * 64 ≤ 64; omega

end Cert.Kernel.Fr

end
-- ==== Proof.Domain.lean ====
/-
  The integer part of the precondition, read back. The predicate ends in a conjunction of four
  whole-array tests; the last two say, of each of the two id vectors, that every entry is at least 0
  and below the table's row count, both compared as signed 32-bit numbers. A word that is nonnegative
  as a signed number has its top bit clear, so it is the same number read unsigned; hence each id, as
  a natural number, is below the row count: 1000000 for the first id vector, 100000 for the second.
-/
import proofs.«117546_j12781822673306_2_alg».proof.Proof.Gen.Pre_finite_inputs
import Idealize.ShloMosaic.Lib.ValueIdx
import Idealize.ShloMosaic.Lib.ReduceAll

namespace Cert.Domain

open Idealize.ShloMosaic Idealize.ShloMosaic.ValueIdx

/-- The scalar shape has exactly one index. -/
instance : Subsingleton Cert.Pre_finite_inputs.S_.Idx := ⟨fun a b => funext fun d => d.elim0⟩

/-- A 32-bit word w with 0 ≤ w and w < n as signed numbers, where n < 2^31, satisfies w < n as a natural
    number: nonnegative signed means the top bit is clear, and then the signed and unsigned readings agree. -/
theorem toNat_lt_of_signed (w : BitVec 32) (n : Nat) (hn : n < 2 ^ 31)
    (h0 : IntOp.cmpi .sge w (0#32) = 1#1) (h1 : IntOp.cmpi .slt w (BitVec.ofNat 32 n) = 1#1) :
    w.toNat < n := by
  rw [IntOp.cmpi_sge] at h0
  rw [IntOp.cmpi_slt] at h1
  have hz : (0#32 : BitVec 32).toInt = 0 := by decide
  have hnn : (BitVec.ofNat 32 n).toNat = n := by rw [BitVec.toNat_ofNat]; omega
  have hni : (BitVec.ofNat 32 n).toInt = (n : Int) := by
    rw [BitVec.toInt_eq_toNat_of_lt (by omega), hnn]
  have hw : 2 * w.toNat < 2 ^ 32 := BitVec.toInt_pos_iff.1 (hz ▸ h0)
  rw [BitVec.toInt_eq_toNat_of_lt hw, hni] at h1
  omega

/-- Every id of the first vector is below 1000000 and every id of the second is below 100000, as natural numbers. -/
theorem ids_lt {F : FTy → Type} [FloatOps F] [Cert.Pre_finite_inputs.Facts]
    (a0 : FVec F Cert.Pre_finite_inputs.S1000000x64 .f32) (a1 : FVec F Cert.Pre_finite_inputs.S100000x64 .f32)
    (a2 a3 : IVec Cert.Pre_finite_inputs.S4096 32)
    (h : Cert.Pre_finite_inputs.fn (F := F) a0 a1 a2 a3 = fun _ => 1#1) :
    (∀ i : Fin 4096, (a2 (ix1 i)).toNat < 1000000) ∧ (∀ i : Fin 4096, (a3 (ix1 i)).toNat < 100000) := by
  have e := congrFun h ix0
  dsimp only [Cert.Pre_finite_inputs.fn, Cert.Pre_finite_inputs.fn_part1, andi] at e
  -- the outer conjunction: ((floats ∧ floats) ∧ first ids) ∧ second ids
  obtain ⟨e123, e4⟩ := IntOp.andi_eq_one.1 e
  obtain ⟨-, e3⟩ := IntOp.andi_eq_one.1 e123
  refine ⟨fun i => ?_, fun i => ?_⟩
  · have p := Host.reduce_andi_all _ _ _ _ _ e3 (ix1 i)
    dsimp only [andi, cmpi, broadcastInDim, constantI] at p
    obtain ⟨p0, p1⟩ := IntOp.andi_eq_one.1 p
    exact toNat_lt_of_signed _ 1000000 (by decide) p0 p1
  · have p := Host.reduce_andi_all _ _ _ _ _ e4 (ix1 i)
    dsimp only [andi, cmpi, broadcastInDim, constantI] at p
    obtain ⟨p0, p1⟩ := IntOp.andi_eq_one.1 p
    exact toNat_lt_of_signed _ 100000 (by decide) p0 p1

end Cert.Domain
-- ==== Proof.Spec.lean ====
/-
  The function both programs compute. Entry (p, q) of the result is the inner product, over the 64 hidden
  coordinates, of the user-table row that the p-th user id names and the item-table row that the q-th item id
  names. A 32-bit id names a row by its unsigned value; so that the function is total the value is clamped to the
  table's last row, and on an id that is in range the clamp does nothing (`row_val_of_lt`).
-/
import Idealize.ShloMosaic.PureOps.Ideal
import Idealize.ShloMosaic.Lib.ValueIdx

noncomputable section

open scoped BigOperators

namespace Cert.Spec

open Idealize.ShloMosaic Idealize.ShloMosaic.ValueIdx

/-- The row of an `n`-row table that the word `w` names: its unsigned value, clamped to the last row. -/
def row (n : Nat) (hn : 0 < n) (w : BitVec 32) : Fin n := ⟨min w.toNat (n - 1), by omega⟩

/-- On a word below the number of rows the clamp does nothing. -/
theorem row_val_of_lt (n : Nat) (hn : 0 < n) (w : BitVec 32) (h : w.toNat < n) : (row n hn w).val = w.toNat := by
  unfold row; simp only; omega

/-- One entry: the inner product of user row `uid[p]` and item row `iid[q]`. -/
def entry (u : FVec Ideal ⟨2, ![1000000, 64]⟩ .f32) (v : FVec Ideal ⟨2, ![100000, 64]⟩ .f32)
    (uid iid : IVec ⟨1, ![4096]⟩ 32) (p q : Fin 4096) : EReal :=
  ∑ k : Fin 64, u (ix2 (row 1000000 (by decide) (uid (ix1 p))) k) * v (ix2 (row 100000 (by decide) (iid (ix1 q))) k)

/-- The whole result, as one function of the four argument arrays. -/
def G (u : FVec Ideal ⟨2, ![1000000, 64]⟩ .f32) (v : FVec Ideal ⟨2, ![100000, 64]⟩ .f32)
    (uid iid : IVec ⟨1, ![4096]⟩ 32) : FVec Ideal ⟨2, ![4096, 4096]⟩ .f32 :=
  fun j => entry u v uid iid (j 0) (j 1)

theorem G_apply (u : FVec Ideal ⟨2, ![1000000, 64]⟩ .f32) (v : FVec Ideal ⟨2, ![100000, 64]⟩ .f32)
    (uid iid : IVec ⟨1, ![4096]⟩ 32) (p q : Fin 4096) :
    G u v uid iid (ix2 p q) = entry u v uid iid p q := rfl

end Cert.Spec

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.RefValue.lean ====
/-
  The reference's result, read entry by entry, is the specification's function of the four argument arrays.

  Entry (p, q) of the reference's product is the sum over the 64 hidden coordinates k of the gathered user row p at k
  times the gathered item row q at k. A gathered row p is the table's row numbered by the p-th entry of the index
  column, read signed and clamped to the table's last row. The index column is the id vector after the wrap of
  negative ids (an id below zero, read signed, has the table's length added), spread as one column. An id whose
  unsigned value is below 2³¹ has a clear sign bit, so the wrap keeps it and its signed reading is its unsigned
  value: the row the gather reads is the row the specification names.
-/
import proofs.«117546_j12781822673306_2_alg».proof.Proof.Gen.ReferenceIdeal.Run
import proofs.«117546_j12781822673306_2_alg».proof.Proof.Gen.ReferenceIdeal.Read
import proofs.«117546_j12781822673306_2_alg».proof.Proof.Spec
import proofs.«117546_j12781822673306_2_alg».proof.Proof.LibGatherRows
import proofs.«117546_j12781822673306_2_alg».proof.Proof.LibJoinIota

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.ValueIdx

/-- A 32-bit word whose unsigned value is below 2³¹ reads the same signed. -/
theorem toInt_of_lt (w : BitVec 32) (h : w.toNat < 2 ^ 31) : w.toInt = (w.toNat : Int) := by
  unfold BitVec.toInt
  rw [if_pos (by omega)]

/-- The gather's row — the word read signed, clamped to the last row — is the specification's row (the unsigned
    value, clamped to the last row) for a word below 2³¹. -/
theorem clamp_eq_row (n : Nat) (hn : 0 < n) (w : BitVec 32) (h : w.toNat < 2 ^ 31)
    (hlt : min w.toInt.toNat (n - 1) < n) :
    (⟨min w.toInt.toNat (n - 1), hlt⟩ : Fin n) = Cert.Spec.row n hn w := by
  apply Fin.ext
  show min w.toInt.toNat (n - 1) = min w.toNat (n - 1)
  rw [toInt_of_lt w h, Int.toNat_natCast]

/-- The user-id column at (p, 0) is the p-th user id: an id below 2³¹ is not negative, so the wrap keeps it. -/
theorem col_u (x2 : IVec S4096 32) (p : Fin 4096) (h : (x2 (ix1 p)).toNat < 2 ^ 31) :
    val_main_v5 (F := Ideal) x2 (ix2 p (0 : Fin 1)) = x2 (ix1 p) := by
  have h0 : 0 ≤ (x2 (ix1 p)).toInt := by rw [toInt_of_lt _ h]; omega
  exact (JoinIota.broadcast_vec_column_apply bcast_S4096_S4096x1_0 (val_main_v4 (F := Ideal) x2) p).trans
    (JoinIota.wrap_index_of_nonneg 1000000#32 bcast_S_S4096 x2 (ix1 p) h0)

/-- The item-id column at (q, 0) is the q-th item id. -/
theorem col_i (x3 : IVec S4096 32) (q : Fin 4096) (h : (x3 (ix1 q)).toNat < 2 ^ 31) :
    val_main_v12 (F := Ideal) x3 (ix2 q (0 : Fin 1)) = x3 (ix1 q) := by
  have h0 : 0 ≤ (x3 (ix1 q)).toInt := by rw [toInt_of_lt _ h]; omega
  exact (JoinIota.broadcast_vec_column_apply bcast_S4096_S4096x1_0 (val_main_v11 (F := Ideal) x3) q).trans
    (JoinIota.wrap_index_of_nonneg 100000#32 bcast_S_S4096 x3 (ix1 q) h0)

/-- The gathered user rows at (p, k): the user table at the row the p-th id names, column k. -/
theorem rows_u (x0 : FVec Ideal S1000000x64 .f32) (x2 : IVec S4096 32) (p : Fin 4096) (k : Fin 64)
    (h : (x2 (ix1 p)).toNat < 2 ^ 31) :
    val_main_v6 (F := Ideal) x0 x2 (ix2 p k) = x0 (ix2 (Cert.Spec.row 1000000 (by decide) (x2 (ix1 p))) k) := by
  have hg := GatherRows.gather_rows_apply (N := 1000000) (R := 4096) (C := 64) (by decide)
    gather_S1000000x64_S4096x1_S4096x64_1_0_n_n_0_1_164_wf x0 (val_main_v5 (F := Ideal) x2) p k
  refine (show val_main_v6 (F := Ideal) x0 x2 (ix2 p k) = _ from hg).trans ?_
  simp only [col_u x2 p h]
  rw [clamp_eq_row 1000000 (by decide) (x2 (ix1 p)) h]

/-- The gathered item rows at (q, k): the item table at the row the q-th id names, column k. -/
theorem rows_i (x1 : FVec Ideal S100000x64 .f32) (x3 : IVec S4096 32) (q : Fin 4096) (k : Fin 64)
    (h : (x3 (ix1 q)).toNat < 2 ^ 31) :
    val_main_v13 (F := Ideal) x1 x3 (ix2 q k) = x1 (ix2 (Cert.Spec.row 100000 (by decide) (x3 (ix1 q))) k) := by
  have hg := GatherRows.gather_rows_apply (N := 100000) (R := 4096) (C := 64) (by decide)
    gather_S100000x64_S4096x1_S4096x64_1_0_n_n_0_1_164_wf x1 (val_main_v12 (F := Ideal) x3) q k
  refine (show val_main_v13 (F := Ideal) x1 x3 (ix2 q k) = _ from hg).trans ?_
  simp only [col_i x3 q h]
  rw [clamp_eq_row 100000 (by decide) (x3 (ix1 q)) h]

/-- The reference's product is the specification's function, when every id is below 2³¹. -/
theorem result_eq (x0 : FVec Ideal S1000000x64 .f32) (x1 : FVec Ideal S100000x64 .f32) (x2 x3 : IVec S4096 32)
    (hu : ∀ i : Fin 4096, (x2 (ix1 i)).toNat < 2 ^ 31) (hi : ∀ i : Fin 4096, (x3 (ix1 i)).toNat < 2 ^ 31) :
    val_main_v14 (F := Ideal) x0 x1 x2 x3 = Cert.Spec.G x0 x1 x2 x3 := by
  funext j
  obtain ⟨p, q, rfl⟩ : ∃ (p q : Fin 4096), j = ix2 p q := ⟨j 0, j 1, eq_ix2 j⟩
  rw [Cert.Spec.G_apply, val_main_v14_apply]
  unfold Cert.Spec.entry
  refine Finset.sum_congr rfl fun k _ => ?_
  have el : lidx_main_v14 (ix2 p q) k = ix2 p k := by
    funext a; match a with | ⟨0, _⟩ => rfl | ⟨1, _⟩ => rfl
  have er : ridx_main_v14 (ix2 p q) k = ix2 q k := by
    funext a; match a with | ⟨0, _⟩ => rfl | ⟨1, _⟩ => rfl
  rw [el, er, rows_u x0 x2 p k (hu p), rows_i x1 x3 q k (hi q)]

open Cert.ReferenceIdeal in
/-- Every weakly fair execution of the reference terminates with its result at the specification's function of the
    four argument arrays and the arguments unchanged, when the user ids are below the user table's length and the
    item ids below the item table's. -/
theorem run (m' : (ℓ : Loc nD τ sig) → Buf (Elt Ideal) ℓ) (ρ' : Dev nD → PrngReg)
    (hu : ∀ (c : Dev nD) (i : Fin 4096), ((m' ((c.tc : Thread nD τ).loc main_arg2) : IVec S4096 32) (ValueIdx.ix1 i)).toNat < 1000000)
    (hi : ∀ (c : Dev nD) (i : Fin 4096), ((m' ((c.tc : Thread nD τ).loc main_arg3) : IVec S4096 32) (ValueIdx.ix1 i)).toNat < 100000) :
    θ_run (defs (F := Ideal)) (onTc (τ := τ) (main (F := Ideal))) ⟨m', fun _ => 0, ρ'⟩ (fun r => ∀ c : Dev nD,
      r.2.mem ((c.tc : Thread nD τ).loc main_v14) = Cert.Spec.G (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run (defs (F := Ideal)) _ _).mono
    (fun _ h c => ⟨(h c).1.trans ((val_main_v14_eq (F := Ideal) _ _ _ _).trans
        (result_eq _ _ _ _ (fun i => Nat.lt_trans (hu c i) (by decide)) (fun i => Nat.lt_trans (hi c i) (by decide)))),
      (h c).2⟩)
    (Cert.ReferenceIdeal.Value.run (F := Ideal) m' ρ')

end Cert.RefValue

end
-- ==== Proof.ValueHost.lean ====
/-
  The host stretches between the regions, read at an entry. The program reshapes each table [n, 64] to
  [n, 1, 64] before its gather and each gathered result [4096, 1, 64] back to [4096, 64]; the left operand of
  the product is the gathered user rows, the right operand the gathered item rows transposed; the changes of
  float format are the identity on the extended reals. Row-major position is what a reshape preserves:
  entry (r, 0, k) of the rank-3 array is entry (r, k) of the matrix.
-/
import proofs.«117546_j12781822673306_2_alg».proof.Proof.FrameRun
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg) (hO : Ok m)

/-- A matrix [n, 64] reshaped to [n, 1, 64] holds at (r, 0, k) the matrix's entry (r, k). -/
theorem addMid_apply {n : Nat} (x : (⟨2, ![n, 64]⟩ : Shape).Idx → EReal) (h : (⟨2, ![n, 64]⟩ : Shape).ShapeCasts ⟨3, ![n, 1, 64]⟩)
    (r : Fin n) (k : Fin 64) : shapeCast ⟨3, ![n, 1, 64]⟩ x h (ix3 r (0 : Fin 1) k) = x (ix2 r k) :=
  shapeCast_apply x h _ _ (by
    rw [Shape.rowMajor_val_two, Shape.rowMajor_val_three]
    show r.val * 64 + k.val = (r.val * 1 + (0 : Fin 1).val) * 64 + k.val
    simp)

/-- An array [n, 1, 64] reshaped to [n, 64] holds at (r, k) the array's entry (r, 0, k). -/
theorem dropMid_apply {n : Nat} (x : (⟨3, ![n, 1, 64]⟩ : Shape).Idx → EReal) (h : (⟨3, ![n, 1, 64]⟩ : Shape).ShapeCasts ⟨2, ![n, 64]⟩)
    (r : Fin n) (k : Fin 64) : shapeCast ⟨2, ![n, 64]⟩ x h (ix2 r k) = x (ix3 r (0 : Fin 1) k) :=
  shapeCast_apply x h _ _ (by
    rw [Shape.rowMajor_val_two, Shape.rowMajor_val_three]
    show (r.val * 1 + (0 : Fin 1).val) * 64 + k.val = r.val * 64 + k.val
    simp)

/-- At the user gather's entry the rank-3 user table holds at (r, 0, k) the user table's entry (r, k). -/
theorem U1_v0_apply (c : Dev nD) (r : Fin 1000000) (k : Fin 64) :
    (U1 m ρ c main_v0 : S1000000x1x64.Idx → EReal) (ix3 r (0 : Fin 1) k)
      = (m ((c : Thread nD τ).loc main_arg0) : S1000000x64.Idx → EReal) (ix2 r k) := by
  have e : (U1 m ρ c main_v0 : S1000000x1x64.Idx → EReal)
      = shapeCast S1000000x1x64 (m ((c : Thread nD τ).loc main_arg0) : S1000000x64.Idx → EReal) shapeCasts_S1000000x64_S1000000x1x64 := by
    show StableHlo.after hostOps0 (W0 m ρ c) (Proc.devRef .tc main_v0) = _
    after_results <;> rfl
  rw [e]; exact addMid_apply _ _ r k

/-- At the item gather's entry the rank-3 item table holds at (r, 0, k) the item table's entry (r, k). -/
theorem U3_v3_apply (c : Dev nD) (r : Fin 100000) (k : Fin 64) :
    (U3 m ρ hO c main_v3 : S100000x1x64.Idx → EReal) (ix3 r (0 : Fin 1) k)
      = (m ((c : Thread nD τ).loc main_arg1) : S100000x64.Idx → EReal) (ix2 r k) := by
  have e : (U3 m ρ hO c main_v3 : S100000x1x64.Idx → EReal)
      = shapeCast S100000x1x64 (W2 m ρ hO c (Proc.devRef .tc main_arg1) : S100000x64.Idx → EReal) shapeCasts_S100000x64_S100000x1x64 := by
    show StableHlo.after hostOps1 (W2 m ρ hO c) (Proc.devRef .tc main_v3) = _
    after_results <;> rfl
  have e' : W2 m ρ hO c (Proc.devRef .tc main_arg1) = m ((c : Thread nD τ).loc main_arg1) :=
    (W2_of_ne m ρ hO c main_arg1 (by decide)).trans <|
      (StableHlo.after_of_writes_sub hostOps0 _ hostOps0_writes (by decide)).trans rfl
  rw [e, e']; exact addMid_apply _ _ r k

/-- At the item gather's entry the user rows as a matrix hold at (p, k) the user gather's result at (p, 0, k). -/
theorem U3_v2_apply (c : Dev nD) (p : Fin 4096) (k : Fin 64) :
    (U3 m ρ hO c main_v2 : S4096x64.Idx → EReal) (ix2 p k)
      = (U2 m ρ hO c main_v1 : S4096x1x64.Idx → EReal) (ix3 p (0 : Fin 1) k) := by
  have e : (U3 m ρ hO c main_v2 : S4096x64.Idx → EReal)
      = shapeCast S4096x64 (U2 m ρ hO c main_v1 : S4096x1x64.Idx → EReal) shapeCasts_S4096x1x64_S4096x64 := by
    show StableHlo.after hostOps1 (W2 m ρ hO c) (Proc.devRef .tc main_v2) = _
    after_results <;> rfl
  rw [e]; exact dropMid_apply _ _ p k

/-- The product's left operand at (p, k) is the user gather's result at (p, 0, k). -/
theorem U5_v6_apply (c : Dev nD) (p : Fin 4096) (k : Fin 64) :
    (U5 m ρ hO c main_v6 : S4096x64.Idx → EReal) (ix2 p k)
      = (U2 m ρ hO c main_v1 : S4096x1x64.Idx → EReal) (ix3 p (0 : Fin 1) k) := by
  have e : (U5 m ρ hO c main_v6 : S4096x64.Idx → EReal)
      = (truncf (F := Ideal) .bf16 (W4 m ρ hO c (Proc.devRef .tc main_v2) : FVec Ideal S4096x64 .f32) bitsLt_bf16_f32 : FVec Ideal S4096x64 .bf16) := by
    show StableHlo.after hostOps2 (W4 m ρ hO c) (Proc.devRef .tc main_v6) = _
    after_results <;> rfl
  have e' : W4 m ρ hO c (Proc.devRef .tc main_v2) = U3 m ρ hO c main_v2 := W4_of_ne m ρ hO c main_v2 (by decide)
  rw [e, e']
  exact (truncf_apply (φ := .f32) (ψ := .bf16) (U3 m ρ hO c main_v2 : FVec Ideal S4096x64 .f32) bitsLt_bf16_f32 (ix2 p k)).trans
    (U3_v2_apply m ρ hO c p k)

/-- The product's right operand at (k, q) is the item gather's result at (q, 0, k). -/
theorem U5_v8_apply (c : Dev nD) (k : Fin 64) (q : Fin 4096) :
    (U5 m ρ hO c main_v8 : S64x4096.Idx → EReal) (ix2 k q)
      = (U4 m ρ hO c main_v4 : S4096x1x64.Idx → EReal) (ix3 q (0 : Fin 1) k) := by
  have e : (U5 m ρ hO c main_v8 : S64x4096.Idx → EReal)
      = (truncf (F := Ideal) .bf16 (transpose S64x4096 [1, 0]
          (shapeCast S4096x64 (U4 m ρ hO c main_v4 : S4096x1x64.Idx → EReal) shapeCasts_S4096x1x64_S4096x64 : FVec Ideal S4096x64 .f32)
          transposes_S4096x64_S64x4096_1_0 : FVec Ideal S64x4096 .f32) bitsLt_bf16_f32 : FVec Ideal S64x4096 .bf16) := by
    show StableHlo.after hostOps2 (W4 m ρ hO c) (Proc.devRef .tc main_v8) = _
    after_results <;> rfl
  rw [e]
  refine (truncf_apply (φ := .f32) (ψ := .bf16) (transpose S64x4096 [1, 0]
      (shapeCast S4096x64 (U4 m ρ hO c main_v4 : S4096x1x64.Idx → EReal) shapeCasts_S4096x1x64_S4096x64 : FVec Ideal S4096x64 .f32)
      transposes_S4096x64_S64x4096_1_0 : FVec Ideal S64x4096 .f32) bitsLt_bf16_f32 (ix2 k q)).trans ?_
  refine (transpose_ix2_apply _ transposes_S4096x64_S64x4096_1_0 k q).trans ?_
  exact dropMid_apply _ _ q k

end Cert.KernelIdeal.Fr

end
-- ==== Proof.ValueR0.lean ====
/-
  The user row-gather region's value: the result array after the region, as one function of the table array and
  the id table the region is entered with. Grid point t of 4096 loads the [1, 1, 64] block of the table array
  [1000000, 1, 64] whose block index is (the t-th id word's unsigned value, 0, 0), and stores it unchanged as block
  (t, 0, 0) of the result [4096, 1, 64]; every point writes its block back, and the 4096 blocks tile the result. So
  entry (p, 0, k) of the result is entry (r, 0, k) of the table array, r the row the p-th id word names. An
  admissible id table has every block inside the table array, that is every id word below 1000000, so r is the
  word's unsigned value, which is also its value clamped to the last row.
-/
import proofs.«117546_j12781822673306_2_alg».proof.Proof.FrameR0
import proofs.«117546_j12781822673306_2_alg».proof.Proof.Spec
import Idealize.ShloMosaic.Lib.Pipeline.Value
import Idealize.ShloMosaic.Lib.ValueIdx

set_option maxRecDepth 16384

noncomputable section

namespace Cert.KernelIdeal.FrV0

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable {F : FTy → Type} [FloatOps F]

theorem hz3 : (![0, 0, 0] : Fin 3 → Nat) = fun _ => 0 := funext fun a => by fin_cases a <;> rfl

/-- The body stores the block it loaded: a cast of a [1, 1, 64] block to its own shape is the block. -/
theorem out0_1_eq (x0 : Vec F S1x1x64 .f32) : out0_1 x0 = x0 := by
  unfold out0_1
  rw [View.canon_unit_zero hz3]
  simp only [View.ld_unit_zero (S := S1x1x64) hz3]
  unfold k0_pay1
  exact shapeCast_self _ _

/-- On the one-axis grid of 4096 points the coordinate of point t is t. -/
theorem coords0 (t : Fin grid0.N) : ((grid0.coords t) 0).val = t.val := by
  have hN : grid0.N = 4096 := N_0
  have ht := t.isLt
  show t.val / grid0.stride 0 % 4096 = t.val
  rw [show grid0.stride 0 = 1 from by decide]
  omega

/-- The result window's index map: block (i, 0, 0) at grid coordinate i (a coordinate below 4096 is its own 32-bit word's value). -/
theorem ix_out0 (i : grid0.Coords) : cc0_transform_1 i = ![(i 0).val, 0, 0] := by
  have hi : (i 0).val < 4096 := (i 0).isLt
  unfold cc0_transform_1
  dsimp only
  rw [BitVec.toNat_ofNat, Nat.mod_eq_of_lt (by omega)]
  rfl

/-- The table window's index map, at any contents pf of the id table: block (the unsigned value of the id word at
    position i, 0, 0) at grid coordinate i. -/
theorem idword0 (pf : pre0.Contents (Elt F)) (i : grid0.Coords) :
    cc0_transform_0 k0_off1_inb numel1_S1 pf i = ![((pf 0 : IVec S4096 32) (ValueIdx.ix1 (i 0))).toNat, 0, 0] := by
  have hi : (i 0).val < 4096 := (i 0).isLt
  have he : (Rect.unit (s := S4096) ![(Scalar.indexCast (BitVec.ofNat 32 (i 0).val)).toNat] S1.size (k0_off1_inb i)).emb
      (Shape.Idx.first (numel1_S1.symm ▸ Nat.one_pos)) = ValueIdx.ix1 (i 0) := by
    funext a; apply Fin.ext
    match a with
    | ⟨0, _⟩ =>
      show (BitVec.ofNat 32 (i 0).val).toNat + 1 * 0 = (i 0).val
      rw [BitVec.toNat_ofNat, Nat.mod_eq_of_lt (by omega)]
      omega
  unfold cc0_transform_0
  dsimp only
  exact congrArg (fun x => ![((pf 0 : IVec S4096 32) x).toNat, 0, 0]) he

/-- The result window is written back at every point: the next point's block index differs in its first coordinate. -/
theorem flush0_1 (a : (pcfg0 (F := F)).Adm) (t : Fin (cfg0 a).N) : ((cfg0 a).win 1).flush t = true := by
  have hN : grid0.N = 4096 := N_0
  show Pipeline.Window.flushOf grid0 true cc0_transform_1 t = true
  unfold Pipeline.Window.flushOf
  rw [Bool.true_and, Bool.or_eq_true, decide_eq_true_eq, decide_eq_true_eq]
  by_cases h : t.val + 1 = grid0.N
  · exact Or.inl h
  · have ht : t.val < grid0.N := t.isLt
    refine Or.inr ⟨by omega, fun e => ?_⟩
    rw [ix_out0, ix_out0, coords0, coords0] at e
    have e0 : t.val + 1 = t.val := congrFun e 0
    omega

/-- The result window's block index at point t is (t, 0, 0). -/
theorem index0_1 (a : (pcfg0 (F := F)).Adm) (t : Fin (cfg0 a).N) : ((cfg0 a).win 1).index t = ![t.val, 0, 0] := by
  show cc0_transform_1 (grid0.coords t) = _
  rw [ix_out0, coords0]

/-- The table window's block index at point t is (the t-th id word's value, 0, 0). -/
theorem index0_0 (a : (pcfg0 (F := F)).Adm) (t : Fin (cfg0 a).N) :
    ((cfg0 a).win 0).index t = ![((a.1 0 : IVec S4096 32) (ValueIdx.ix1 (grid0.coords t 0))).toNat, 0, 0] :=
  idword0 a.1 (grid0.coords t)

/-- Every id word of an admissible id table is below 1000000: the table window's block at its position lies inside the
    table array, and on the row axis the block has one row. -/
theorem id_lt0 (a : (pcfg0 (F := F)).Adm) (i : grid0.Coords) : ((a.1 0 : IVec S4096 32) (ValueIdx.ix1 (i 0))).toNat < 1000000 := by
  obtain ⟨h, -⟩ := (a.2 : ok0 a.1) i
  have h0 := h 0
  rw [idword0] at h0
  have h1 : (((a.1 0 : IVec S4096 32) (ValueIdx.ix1 (i 0))).toNat + 1) * 1 ≤ 1000000 := h0
  omega

/-- One entry of the table array, its coordinates given by equations — row the value of the id word at position p,
    p the result index's row, the other two coordinates the result index's — is the table array at the row the
    result index's id word names: a word below 1000000 names the row of its value. -/
theorem row_read0 (tbl : Vec F S1000000x1x64 .f32) (ids : IVec S4096 32) (p : Fin 4096)
    (hw : (ids (ValueIdx.ix1 p)).toNat < 1000000) (i0 : S1000000x1x64.Idx) (j : S4096x1x64.Idx)
    (hj : (j 0).val = p.val) (h0 : (i0 0).val = (ids (ValueIdx.ix1 p)).toNat) (h1 : (i0 1).val = (j 1).val)
    (h2 : (i0 2).val = (j 2).val) :
    tbl i0 = tbl (ix3 (Cert.Spec.row 1000000 (by decide) (ids (ValueIdx.ix1 (j 0)))) (j 1) (j 2)) := by
  have e : ids (ValueIdx.ix1 (j 0)) = ids (ValueIdx.ix1 p) := congrArg (fun q => ids (ValueIdx.ix1 q)) (Fin.ext hj)
  refine congrArg tbl (funext fun ax => Fin.ext ?_)
  match ax with
  | ⟨0, _⟩ =>
    show (i0 0).val = (Cert.Spec.row 1000000 (by decide) (ids (ValueIdx.ix1 (j 0)))).val
    rw [e, Cert.Spec.row_val_of_lt _ _ _ hw, h0]
  | ⟨1, _⟩ => exact h1
  | ⟨2, _⟩ => exact h2

/-- What point t writes back is block t of the gathered rows: a block's coordinate is its index times the block's
    size plus the coordinate inside the block, the blocks have one row, and the two windows' indices agree off the
    row axis. -/
theorem flushed0_1 (V : (c : Dev nD) → (b : Ref sig .tc) → Buf (Elt F) ((c : Thread nD τ).loc b)) (a : (pcfg0 (F := F)).Adm) (c : Dev nD)
    (t : Fin (cfg0 a).N) :
    (dat0 (F := F) V a c).flushed 1 t = (((cfg0 a).win 1).blk t).view.read (Elt F)
      (fun j : S4096x1x64.Idx => (V c main_v0 : Vec F S1000000x1x64 .f32) (ix3 (Cert.Spec.row 1000000 (by decide) ((a.1 0 : IVec S4096 32) (ValueIdx.ix1 (j 0)))) (j 1) (j 2))) := by
  show ((cfg0 a).win 1).cut ((cfg0 a).grid.coords t) ((dat0 V a c).after 1 t) = _
  rw [after0_1]
  funext y
  refine (congrFun (out0_1_eq (F := F) (iblk0 V a c 0 t)) _).trans ?_
  have hy0 : (y (0 : Fin 3)).val < 1 := (y (0 : Fin 3)).isLt
  have e0 := index0_0 a t
  have e1 := index0_1 a t
  have ht : t.val < 4096 := by have h : t.val < grid0.N := t.isLt; rw [N_0] at h; exact h
  refine row_read0 (V c main_v0) (a.1 0) (grid0.coords t 0) (id_lt0 a _) ((((cfg0 a).win 0).blk t).view.emb y) ((((cfg0 a).win 1).blk t).view.emb y) ?_ ?_ ?_ ?_
  · show ((cfg0 a).win 1).index t (0 : Fin 3) * 1 + 1 * (y (0 : Fin 3)).val = (grid0.coords t 0).val
    rw [e1, coords0]
    show t.val * 1 + 1 * (y (0 : Fin 3)).val = t.val
    omega
  · show ((cfg0 a).win 0).index t (0 : Fin 3) * 1 + 1 * (y (0 : Fin 3)).val = _
    rw [e0]
    show ((a.1 0 : IVec S4096 32) (ValueIdx.ix1 (grid0.coords t 0))).toNat * 1 + 1 * (y (0 : Fin 3)).val = _
    omega
  · show ((cfg0 a).win 0).index t (1 : Fin 3) * 1 + 1 * (y (1 : Fin 3)).val = ((cfg0 a).win 1).index t (1 : Fin 3) * 1 + 1 * (y (1 : Fin 3)).val
    rw [e0, e1]
    rfl
  · show ((cfg0 a).win 0).index t (2 : Fin 3) * 64 + 1 * (y (2 : Fin 3)).val = ((cfg0 a).win 1).index t (2 : Fin 3) * 64 + 1 * (y (2 : Fin 3)).val
    rw [e0, e1]
    rfl

set_option backward.isDefEq.respectTransparency.types false in
/-- An index of the result array is in point t's block iff each coordinate is in the block's range on its axis. -/
theorem mem_blk0_1 (a : (pcfg0 (F := F)).Adm) (t : Fin (cfg0 a).N) (i : S4096x1x64.Idx) :
    i ∈ (((cfg0 a).win 1).blk t).view.set ↔ ∀ ax : Fin 3, ((cfg0 a).win 1).index t ax * S1x1x64.size ax ≤ (i ax).val
      ∧ (i ax).val < ((cfg0 a).win 1).index t ax * S1x1x64.size ax + S1x1x64.size ax := by
  show i ∈ ((View.whole main_v1).slice (((cfg0 a).win 1).rect t)).set ↔ _
  rw [View.set_slice_whole]
  exact Rect.mem_set_unit

/-- Every index of the result array is in the block of the point numbered by its row. -/
theorem cover0 (a : (pcfg0 (F := F)).Adm) (i : S4096x1x64.Idx) :
    ∃ t : Fin (cfg0 a).N, ((cfg0 a).win 1).flush t = true ∧ i ∈ (((cfg0 a).win 1).blk t).view.set := by
  have hi0 : (i (0 : Fin 3)).val < 4096 := (i (0 : Fin 3)).isLt
  have hi1 : (i (1 : Fin 3)).val < 1 := (i (1 : Fin 3)).isLt
  have hi2 : (i (2 : Fin 3)).val < 64 := (i (2 : Fin 3)).isLt
  have hN : grid0.N = 4096 := N_0
  refine ⟨⟨(i (0 : Fin 3)).val, by show _ < grid0.N; omega⟩, flush0_1 a _, ?_⟩
  rw [mem_blk0_1, index0_1]
  intro ax
  match ax with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 64 ≤ (i (2 : Fin 3)).val ∧ (i (2 : Fin 3)).val < 0 * 64 + 64; omega

/-- THE RESULT ARRAY after the region: entry (p, 0, k) is entry (the row the p-th id word names, 0, k) of the table
    array the region is entered with. -/
theorem gathered_rows0 (V : (c : Dev nD) → (b : Ref sig .tc) → Buf (Elt F) ((c : Thread nD τ).loc b)) (a : (pcfg0 (F := F)).Adm) (c : Dev nD) :
    (dat0 (F := F) V a c).arrAt 1 (cfg0 a).N
      = fun j : S4096x1x64.Idx => (V c main_v0 : Vec F S1000000x1x64 .f32) (ix3 (Cert.Spec.row 1000000 (by decide) ((a.1 0 : IVec S4096 32) (ValueIdx.ix1 (j 0)))) (j 1) (j 2)) :=
  (dat0 (F := F) V a c).arrAt_eq_of_cover 1 _ (fun t _ => flushed0_1 V a c t) (cover0 a)

end Cert.KernelIdeal.FrV0

end
-- ==== Proof.ValueR1.lean ====
/-
  The item row-gather region's value: the result array after the region, as one function of the table array and
  the id table the region is entered with. Grid point t of 4096 loads the [1, 1, 64] block of the table array
  [100000, 1, 64] whose block index is (the t-th id word's unsigned value, 0, 0), and stores it unchanged as block
  (t, 0, 0) of the result [4096, 1, 64]; every point writes its block back, and the 4096 blocks tile the result. So
  entry (p, 0, k) of the result is entry (r, 0, k) of the table array, r the row the p-th id word names. An
  admissible id table has every block inside the table array, that is every id word below 100000, so r is the
  word's unsigned value, which is also its value clamped to the last row.
-/
import proofs.«117546_j12781822673306_2_alg».proof.Proof.FrameR1
import proofs.«117546_j12781822673306_2_alg».proof.Proof.Spec
import Idealize.ShloMosaic.Lib.Pipeline.Value
import Idealize.ShloMosaic.Lib.ValueIdx

set_option maxRecDepth 16384

noncomputable section

namespace Cert.KernelIdeal.FrV1

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable {F : FTy → Type} [FloatOps F]

theorem hz3 : (![0, 0, 0] : Fin 3 → Nat) = fun _ => 0 := funext fun a => by fin_cases a <;> rfl

/-- The body stores the block it loaded: a cast of a [1, 1, 64] block to its own shape is the block. -/
theorem out1_1_eq (x0 : Vec F S1x1x64 .f32) : out1_1 x0 = x0 := by
  unfold out1_1
  rw [View.canon_unit_zero hz3]
  simp only [View.ld_unit_zero (S := S1x1x64) hz3]
  unfold k1_pay1
  exact shapeCast_self _ _

/-- On the one-axis grid of 4096 points the coordinate of point t is t. -/
theorem coords1 (t : Fin grid1.N) : ((grid1.coords t) 0).val = t.val := by
  have hN : grid1.N = 4096 := N_1
  have ht := t.isLt
  show t.val / grid1.stride 0 % 4096 = t.val
  rw [show grid1.stride 0 = 1 from by decide]
  omega

/-- The result window's index map: block (i, 0, 0) at grid coordinate i (a coordinate below 4096 is its own 32-bit word's value). -/
theorem ix_out1 (i : grid1.Coords) : cc1_transform_1 i = ![(i 0).val, 0, 0] := by
  have hi : (i 0).val < 4096 := (i 0).isLt
  unfold cc1_transform_1
  dsimp only
  rw [BitVec.toNat_ofNat, Nat.mod_eq_of_lt (by omega)]
  rfl

/-- The table window's index map, at any contents pf of the id table: block (the unsigned value of the id word at
    position i, 0, 0) at grid coordinate i. -/
theorem idword1 (pf : pre1.Contents (Elt F)) (i : grid1.Coords) :
    cc1_transform_0 k1_off1_inb numel1_S1 pf i = ![((pf 0 : IVec S4096 32) (ValueIdx.ix1 (i 0))).toNat, 0, 0] := by
  have hi : (i 0).val < 4096 := (i 0).isLt
  have he : (Rect.unit (s := S4096) ![(Scalar.indexCast (BitVec.ofNat 32 (i 0).val)).toNat] S1.size (k1_off1_inb i)).emb
      (Shape.Idx.first (numel1_S1.symm ▸ Nat.one_pos)) = ValueIdx.ix1 (i 0) := by
    funext a; apply Fin.ext
    match a with
    | ⟨0, _⟩ =>
      show (BitVec.ofNat 32 (i 0).val).toNat + 1 * 0 = (i 0).val
      rw [BitVec.toNat_ofNat, Nat.mod_eq_of_lt (by omega)]
      omega
  unfold cc1_transform_0
  dsimp only
  exact congrArg (fun x => ![((pf 0 : IVec S4096 32) x).toNat, 0, 0]) he

/-- The result window is written back at every point: the next point's block index differs in its first coordinate. -/
theorem flush1_1 (a : (pcfg1 (F := F)).Adm) (t : Fin (cfg1 a).N) : ((cfg1 a).win 1).flush t = true := by
  have hN : grid1.N = 4096 := N_1
  show Pipeline.Window.flushOf grid1 true cc1_transform_1 t = true
  unfold Pipeline.Window.flushOf
  rw [Bool.true_and, Bool.or_eq_true, decide_eq_true_eq, decide_eq_true_eq]
  by_cases h : t.val + 1 = grid1.N
  · exact Or.inl h
  · have ht : t.val < grid1.N := t.isLt
    refine Or.inr ⟨by omega, fun e => ?_⟩
    rw [ix_out1, ix_out1, coords1, coords1] at e
    have e0 : t.val + 1 = t.val := congrFun e 0
    omega

/-- The result window's block index at point t is (t, 0, 0). -/
theorem index1_1 (a : (pcfg1 (F := F)).Adm) (t : Fin (cfg1 a).N) : ((cfg1 a).win 1).index t = ![t.val, 0, 0] := by
  show cc1_transform_1 (grid1.coords t) = _
  rw [ix_out1, coords1]

/-- The table window's block index at point t is (the t-th id word's value, 0, 0). -/
theorem index1_0 (a : (pcfg1 (F := F)).Adm) (t : Fin (cfg1 a).N) :
    ((cfg1 a).win 0).index t = ![((a.1 0 : IVec S4096 32) (ValueIdx.ix1 (grid1.coords t 0))).toNat, 0, 0] :=
  idword1 a.1 (grid1.coords t)

/-- Every id word of an admissible id table is below 100000: the table window's block at its position lies inside the
    table array, and on the row axis the block has one row. -/
theorem id_lt1 (a : (pcfg1 (F := F)).Adm) (i : grid1.Coords) : ((a.1 0 : IVec S4096 32) (ValueIdx.ix1 (i 0))).toNat < 100000 := by
  obtain ⟨h, -⟩ := (a.2 : ok1 a.1) i
  have h0 := h 0
  rw [idword1] at h0
  have h1 : (((a.1 0 : IVec S4096 32) (ValueIdx.ix1 (i 0))).toNat + 1) * 1 ≤ 100000 := h0
  omega

/-- One entry of the table array, its coordinates given by equations — row the value of the id word at position p,
    p the result index's row, the other two coordinates the result index's — is the table array at the row the
    result index's id word names: a word below 100000 names the row of its value. -/
theorem row_read1 (tbl : Vec F S100000x1x64 .f32) (ids : IVec S4096 32) (p : Fin 4096)
    (hw : (ids (ValueIdx.ix1 p)).toNat < 100000) (i0 : S100000x1x64.Idx) (j : S4096x1x64.Idx)
    (hj : (j 0).val = p.val) (h0 : (i0 0).val = (ids (ValueIdx.ix1 p)).toNat) (h1 : (i0 1).val = (j 1).val)
    (h2 : (i0 2).val = (j 2).val) :
    tbl i0 = tbl (ix3 (Cert.Spec.row 100000 (by decide) (ids (ValueIdx.ix1 (j 0)))) (j 1) (j 2)) := by
  have e : ids (ValueIdx.ix1 (j 0)) = ids (ValueIdx.ix1 p) := congrArg (fun q => ids (ValueIdx.ix1 q)) (Fin.ext hj)
  refine congrArg tbl (funext fun ax => Fin.ext ?_)
  match ax with
  | ⟨0, _⟩ =>
    show (i0 0).val = (Cert.Spec.row 100000 (by decide) (ids (ValueIdx.ix1 (j 0)))).val
    rw [e, Cert.Spec.row_val_of_lt _ _ _ hw, h0]
  | ⟨1, _⟩ => exact h1
  | ⟨2, _⟩ => exact h2

/-- What point t writes back is block t of the gathered rows: a block's coordinate is its index times the block's
    size plus the coordinate inside the block, the blocks have one row, and the two windows' indices agree off the
    row axis. -/
theorem flushed1_1 (V : (c : Dev nD) → (b : Ref sig .tc) → Buf (Elt F) ((c : Thread nD τ).loc b)) (a : (pcfg1 (F := F)).Adm) (c : Dev nD)
    (t : Fin (cfg1 a).N) :
    (dat1 (F := F) V a c).flushed 1 t = (((cfg1 a).win 1).blk t).view.read (Elt F)
      (fun j : S4096x1x64.Idx => (V c main_v3 : Vec F S100000x1x64 .f32) (ix3 (Cert.Spec.row 100000 (by decide) ((a.1 0 : IVec S4096 32) (ValueIdx.ix1 (j 0)))) (j 1) (j 2))) := by
  show ((cfg1 a).win 1).cut ((cfg1 a).grid.coords t) ((dat1 V a c).after 1 t) = _
  rw [after1_1]
  funext y
  refine (congrFun (out1_1_eq (F := F) (iblk1 V a c 0 t)) _).trans ?_
  have hy0 : (y (0 : Fin 3)).val < 1 := (y (0 : Fin 3)).isLt
  have e0 := index1_0 a t
  have e1 := index1_1 a t
  have ht : t.val < 4096 := by have h : t.val < grid1.N := t.isLt; rw [N_1] at h; exact h
  refine row_read1 (V c main_v3) (a.1 0) (grid1.coords t 0) (id_lt1 a _) ((((cfg1 a).win 0).blk t).view.emb y) ((((cfg1 a).win 1).blk t).view.emb y) ?_ ?_ ?_ ?_
  · show ((cfg1 a).win 1).index t (0 : Fin 3) * 1 + 1 * (y (0 : Fin 3)).val = (grid1.coords t 0).val
    rw [e1, coords1]
    show t.val * 1 + 1 * (y (0 : Fin 3)).val = t.val
    omega
  · show ((cfg1 a).win 0).index t (0 : Fin 3) * 1 + 1 * (y (0 : Fin 3)).val = _
    rw [e0]
    show ((a.1 0 : IVec S4096 32) (ValueIdx.ix1 (grid1.coords t 0))).toNat * 1 + 1 * (y (0 : Fin 3)).val = _
    omega
  · show ((cfg1 a).win 0).index t (1 : Fin 3) * 1 + 1 * (y (1 : Fin 3)).val = ((cfg1 a).win 1).index t (1 : Fin 3) * 1 + 1 * (y (1 : Fin 3)).val
    rw [e0, e1]
    rfl
  · show ((cfg1 a).win 0).index t (2 : Fin 3) * 64 + 1 * (y (2 : Fin 3)).val = ((cfg1 a).win 1).index t (2 : Fin 3) * 64 + 1 * (y (2 : Fin 3)).val
    rw [e0, e1]
    rfl

set_option backward.isDefEq.respectTransparency.types false in
/-- An index of the result array is in point t's block iff each coordinate is in the block's range on its axis. -/
theorem mem_blk1_1 (a : (pcfg1 (F := F)).Adm) (t : Fin (cfg1 a).N) (i : S4096x1x64.Idx) :
    i ∈ (((cfg1 a).win 1).blk t).view.set ↔ ∀ ax : Fin 3, ((cfg1 a).win 1).index t ax * S1x1x64.size ax ≤ (i ax).val
      ∧ (i ax).val < ((cfg1 a).win 1).index t ax * S1x1x64.size ax + S1x1x64.size ax := by
  show i ∈ ((View.whole main_v4).slice (((cfg1 a).win 1).rect t)).set ↔ _
  rw [View.set_slice_whole]
  exact Rect.mem_set_unit

/-- Every index of the result array is in the block of the point numbered by its row. -/
theorem cover1 (a : (pcfg1 (F := F)).Adm) (i : S4096x1x64.Idx) :
    ∃ t : Fin (cfg1 a).N, ((cfg1 a).win 1).flush t = true ∧ i ∈ (((cfg1 a).win 1).blk t).view.set := by
  have hi0 : (i (0 : Fin 3)).val < 4096 := (i (0 : Fin 3)).isLt
  have hi1 : (i (1 : Fin 3)).val < 1 := (i (1 : Fin 3)).isLt
  have hi2 : (i (2 : Fin 3)).val < 64 := (i (2 : Fin 3)).isLt
  have hN : grid1.N = 4096 := N_1
  refine ⟨⟨(i (0 : Fin 3)).val, by show _ < grid1.N; omega⟩, flush1_1 a _, ?_⟩
  rw [mem_blk1_1, index1_1]
  intro ax
  match ax with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 64 ≤ (i (2 : Fin 3)).val ∧ (i (2 : Fin 3)).val < 0 * 64 + 64; omega

/-- THE RESULT ARRAY after the region: entry (p, 0, k) is entry (the row the p-th id word names, 0, k) of the table
    array the region is entered with. -/
theorem gathered_rows1 (V : (c : Dev nD) → (b : Ref sig .tc) → Buf (Elt F) ((c : Thread nD τ).loc b)) (a : (pcfg1 (F := F)).Adm) (c : Dev nD) :
    (dat1 (F := F) V a c).arrAt 1 (cfg1 a).N
      = fun j : S4096x1x64.Idx => (V c main_v3 : Vec F S100000x1x64 .f32) (ix3 (Cert.Spec.row 100000 (by decide) ((a.1 0 : IVec S4096 32) (ValueIdx.ix1 (j 0)))) (j 1) (j 2)) :=
  (dat1 (F := F) V a c).arrAt_eq_of_cover 1 _ (fun t _ => flushed1_1 V a c t) (cover1 a)

end Cert.KernelIdeal.FrV1

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.ValueR2.lean ====
/-
  The product region's result array. Grid point t of 8 reads rows 512·t … 512·t + 511 of the left operand
  [4096, 64] and all of the right operand [64, 4096], multiplies the two blocks into a zero accumulator and
  writes the 512 × 4096 product back to the same rows of the result. Entry (p, q) of a block product is
  ∑ k, left (p, k) · right (k, q); row 512·t + p of the left operand is row p of its block at t; and the eight
  row bands tile the [4096, 4096] result. So after the region the result array is the matrix product of the two
  operand arrays as the region found them: entry (i, j) is ∑ k : Fin 64, left (i, k) · right (k, j).
-/
import proofs.«117546_j12781822673306_2_alg».proof.Proof.FrameR2
import proofs.«117546_j12781822673306_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FrV2

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_row (i : S512x4096.Idx) (q : dot_S512x64_S64x4096_S512x4096_1_0_0_1_n_n.contr.Idx) : (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem lhs_col (i : S512x4096.Idx) (q : dot_S512x64_S64x4096_S512x4096_1_0_0_1_n_n.contr.Idx) : (dot_S512x64_S64x4096_S512x4096_1_0_0_1_n_n.lhsIdx i q 1).val = (q ⟨0, by decide⟩).val :=
  dot_S512x64_S64x4096_S512x4096_1_0_0_1_n_n.lhsIdx_val_of_single rfl i q
theorem rhs_row (i : S512x4096.Idx) (q : dot_S512x64_S64x4096_S512x4096_1_0_0_1_n_n.contr.Idx) : (dot_S512x64_S64x4096_S512x4096_1_0_0_1_n_n.rhsIdx i q 0).val = (q ⟨0, by decide⟩).val :=
  dot_S512x64_S64x4096_S512x4096_1_0_0_1_n_n.rhsIdx_val_of_single rfl i q
theorem rhs_col (i : S512x4096.Idx) (q : dot_S512x64_S64x4096_S512x4096_1_0_0_1_n_n.contr.Idx) : (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl

/-- Entry (p, q) of the body's product of a 512 × 64 block and a 64 × 4096 block. -/
theorem pay_apply (x0 : Vec Ideal S512x64 .bf16) (x1 : Vec Ideal S64x4096 .bf16) (p : Fin 512) (q : Fin 4096) :
    k2_pay1 (F := Ideal) x0 x1 (ix2 p q) = ∑ k : Fin 64, (x0 (ix2 p k) : EReal) * (x1 (ix2 k q) : EReal) := by
  unfold k2_pay1
  simp only [shapeCast_self]
  exact Cert.PlainDot.matmul_zero_apply dot_S512x64_S64x4096_S512x4096_1_0_0_1_n_n rfl rfl lhs_row lhs_col rhs_row rhs_col none x0 x1 p q

/-! ## The blocks as rows of the operand arrays -/

/-- The printed index maps over the 8 grid points: the left operand's and the result's block index is (t, 0), the
    right operand's is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- Row p of the left operand's block at point t is row 512·t + p of the left operand. -/
theorem left_block_apply (c : Dev nD) (t : Fin cfg2.N) (p : Fin 512) (k : Fin 64) (r : Fin 4096)
    (hr : r.val = 512 * t.val + p.val) :
    (iblk2 V c 0 t : Vec Ideal S512x64 .bf16) (ix2 p k) = (V c main_v6 : S4096x64.Idx → EReal) (ix2 r k) := by
  obtain ⟨e0, e1, -, -, -, -⟩ := idx_facts t
  unfold iblk2
  rw [View.read_apply]
  show V c main_v6 _ = V c main_v6 _
  congr 1
  funext a
  apply Fin.ext
  match a with
  | ⟨0, _⟩ => show win2_0.index t (0 : Fin 2) * 512 + 1 * p.val = r.val; omega
  | ⟨1, _⟩ => show win2_0.index t (1 : Fin 2) * 64 + 1 * k.val = k.val; omega

/-- The right operand's block at every point is the right operand. -/
theorem right_block_apply (c : Dev nD) (t : Fin cfg2.N) (k : Fin 64) (q q' : Fin 4096) (hq : q'.val = q.val) :
    (iblk2 V c 1 t : Vec Ideal S64x4096 .bf16) (ix2 k q) = (V c main_v8 : S64x4096.Idx → EReal) (ix2 k q') := by
  obtain ⟨-, -, e0, e1, -, -⟩ := idx_facts t
  unfold iblk2
  rw [View.read_apply]
  show V c main_v8 _ = V c main_v8 _
  congr 1
  funext a
  apply Fin.ext
  match a with
  | ⟨0, _⟩ => show win2_1.index t (0 : Fin 2) * 64 + 1 * k.val = k.val; omega
  | ⟨1, _⟩ => show win2_1.index t (1 : Fin 2) * 4096 + 1 * q.val = q'.val; omega

/-! ## The result array -/

/-- The product of a [4096, 64] matrix and a [64, 4096] matrix on the extended reals, entry by entry. -/
def matProd (l : S4096x64.Idx → EReal) (r : S64x4096.Idx → EReal) : S4096x4096.Idx → EReal :=
  fun j => ∑ k : Fin 64, l (ix2 (j 0) k) * r (ix2 k (j 1))

theorem matProd_apply (l : S4096x64.Idx → EReal) (r : S64x4096.Idx → EReal) (j : S4096x4096.Idx) :
    matProd l r j = ∑ k : Fin 64, l (ix2 (j 0) k) * r (ix2 k (j 1)) := rfl

/-- What point t writes back is rows 512·t … 512·t + 511 of the product of the two operand arrays. -/
theorem flushed_eq (c : Dev nD) (t : Fin cfg2.N) :
    (dat2 (F := Ideal) V c).flushed 2 t
      = ((cfg2.win 2).blk t).view.read (Elt Ideal) (matProd (V c main_v6) (V c main_v8)) := by
  show (cfg2.win 2).cut (grid2.coords t) ((dat2 (F := Ideal) V c).after 2 t) = _
  rw [after2_2]
  unfold out2_2
  rw [View.canon_unit_zero hz]
  simp only [View.ld_unit_zero (S := S512x64) hz, View.ld_unit_zero (S := S64x4096) hz]
  obtain ⟨-, -, -, -, e0, e1⟩ := idx_facts t
  refine funext fun (j : S512x4096.Idx) => ?_
  obtain ⟨p, q, rfl⟩ : ∃ (p : Fin 512) (q : Fin 4096), j = ix2 p q := ⟨j 0, j 1, eq_ix2 j⟩
  rw [View.read_apply]
  refine (pay_apply (iblk2 V c 0 t) (iblk2 V c 1 t) p q).trans ?_
  refine Eq.trans ?_ (matProd_apply _ _ _).symm
  refine Finset.sum_congr rfl fun k _ => ?_
  refine congrArg₂ (· * ·) (left_block_apply V c t p k _ ?_) (right_block_apply V c t k q _ ?_)
  · show win2_2.index t (0 : Fin 2) * 512 + 1 * p.val = 512 * t.val + p.val; omega
  · show win2_2.index t (1 : Fin 2) * 4096 + 1 * q.val = q.val; omega

/-- An index of the result array is in point t's block iff each coordinate is in the block's range on its axis. -/
theorem mem_blk (t : Fin cfg2.N) (i : S4096x4096.Idx) :
    i ∈ ((cfg2.win 2).blk t).view.set ↔ ∀ a : Fin 2, win2_2.index t a * S512x4096.size a ≤ (i a).val ∧ (i a).val < win2_2.index t a * S512x4096.size a + S512x4096.size a := by
  show i ∈ ((View.whole main_v9).slice (win2_2.rect t)).set ↔ _
  rw [View.set_slice_whole, Rect.mem_set_unit]
  exact Iff.rfl

/-- The eight row bands tile the result: row i lies in the band of point i / 512. -/
theorem cover (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  have hN : cfg2.N = 8 := N_2
  let t : Fin cfg2.N := ⟨(i 0).val / 512, by rw [hN]; omega⟩
  have ht : t.val = (i 0).val / 512 := rfl
  obtain ⟨-, -, -, -, e0, e1⟩ := idx_facts t
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 4096 ≤ (i 1).val ∧ (i 1).val < win2_2.index t (1 : Fin 2) * 4096 + 4096; omega

/-- THE RESULT ARRAY after the region: the matrix product of the two operand arrays as the region found them,
    entry (i, j) = ∑ k : Fin 64, left (i, k) · right (k, j). -/
theorem product_array (c : Dev nD) :
    (dat2 (F := Ideal) V c).arrAt 2 cfg2.N = matProd (V c main_v6) (V c main_v8) :=
  (dat2 (F := Ideal) V c).arrAt_eq_of_cover 2 (matProd (V c main_v6) (V c main_v8)) (fun t _ => flushed_eq V c t) cover

/-- The same, entry by entry, with the two operand arrays named. -/
theorem product_array_apply (c : Dev nD) (l : S4096x64.Idx → EReal) (r : S64x4096.Idx → EReal)
    (hl : V c main_v6 = l) (hr : V c main_v8 = r) (j : S4096x4096.Idx) :
    (dat2 (F := Ideal) V c).arrAt 2 cfg2.N j = ∑ k : Fin 64, l (ix2 (j 0) k) * r (ix2 k (j 1)) := by
  rw [product_array, hl, hr]; rfl

end Cert.KernelIdeal.FrV2

end
-- ==== Proof.ValueMain.lean ====
/-
  The kernel program's result. Following the fold of buffer contents backwards from the end: the result array is
  what the product region leaves, entry (p, q) the sum over k of left(p, k) · right(k, q); the left operand at
  (p, k) is the user gather's result at (p, 0, k), which is row uid[p] of the user table at k; the right operand at
  (k, q) is the item gather's result at (q, 0, k), which is row iid[q] of the item table at k. That is the
  specification's entry (p, q), term by term: no law of arithmetic is needed, the two sums have the same summands.
-/
import proofs.«117546_j12781822673306_2_alg».proof.Proof.FrameRun
import proofs.«117546_j12781822673306_2_alg».proof.Proof.ValueHost
import proofs.«117546_j12781822673306_2_alg».proof.Proof.ValueR0
import proofs.«117546_j12781822673306_2_alg».proof.Proof.ValueR1
import proofs.«117546_j12781822673306_2_alg».proof.Proof.ValueR2
import proofs.«117546_j12781822673306_2_alg».proof.Proof.Spec

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg) (hO : Ok m)

/-- The user gather's result at (p, 0, k) is the user table's row named by the p-th user id, at k. -/
theorem U2_v1_apply (c : Dev nD) (p : Fin 4096) (k : Fin 64) :
    (U2 m ρ hO c main_v1 : S4096x1x64.Idx → EReal) (ix3 p (0 : Fin 1) k)
      = (m ((c : Thread nD τ).loc main_arg0) : S1000000x64.Idx → EReal)
          (ix2 (Cert.Spec.row 1000000 (by decide) ((m ((c : Thread nD τ).loc main_arg2) : IVec S4096 32) (ValueIdx.ix1 p))) k) := by
  obtain rfl : c = 0 := Subsingleton.elim _ _
  have e : (U2 m ρ hO 0 main_v1 : S4096x1x64.Idx → EReal) = (dat0 (U1 m ρ) (a0 m hO) 0).arrAt 1 (cfg0 (a0 m hO)).N :=
    (hF0 m ρ hO 0 1).symm
  rw [e, Cert.KernelIdeal.FrV0.gathered_rows0]
  exact U1_v0_apply m ρ 0 _ k

/-- The item gather's result at (q, 0, k) is the item table's row named by the q-th item id, at k. -/
theorem U4_v4_apply (c : Dev nD) (q : Fin 4096) (k : Fin 64) :
    (U4 m ρ hO c main_v4 : S4096x1x64.Idx → EReal) (ix3 q (0 : Fin 1) k)
      = (m ((c : Thread nD τ).loc main_arg1) : S100000x64.Idx → EReal)
          (ix2 (Cert.Spec.row 100000 (by decide) ((m ((c : Thread nD τ).loc main_arg3) : IVec S4096 32) (ValueIdx.ix1 q))) k) := by
  obtain rfl : c = 0 := Subsingleton.elim _ _
  have e : (U4 m ρ hO 0 main_v4 : S4096x1x64.Idx → EReal) = (dat1 (U3 m ρ hO) (a1 m hO) 0).arrAt 1 (cfg1 (a1 m hO)).N :=
    (hF1 m ρ hO 0 1).symm
  rw [e, Cert.KernelIdeal.FrV1.gathered_rows1]
  exact U3_v3_apply m ρ hO 0 _ k

/-- The result array at the program's end is the specification's function of the four argument arrays. -/
theorem result_eq (c : Dev nD) :
    (W6 m ρ hO c (Proc.devRef .tc main_v9) : S4096x4096.Idx → EReal)
      = Cert.Spec.G (m ((c : Thread nD τ).loc main_arg0)) (m ((c : Thread nD τ).loc main_arg1))
          (m ((c : Thread nD τ).loc main_arg2)) (m ((c : Thread nD τ).loc main_arg3)) := by
  have e : (W6 m ρ hO c (Proc.devRef .tc main_v9) : S4096x4096.Idx → EReal) = (dat2 (U5 m ρ hO) c).arrAt 2 cfg2.N :=
    W6_arr m ρ hO c 2
  rw [e, Cert.KernelIdeal.FrV2.product_array]
  funext j
  obtain ⟨p, q, rfl⟩ : ∃ (p q : Fin 4096), j = ix2 p q := ⟨j 0, j 1, eq_ix2 j⟩
  rw [Cert.KernelIdeal.FrV2.matProd_apply, Cert.Spec.G_apply]
  unfold Cert.Spec.entry
  refine Finset.sum_congr rfl fun k _ => ?_
  exact congrArg₂ (fun (x y : EReal) => x * y)
    ((U5_v6_apply m ρ hO c p k).trans (U2_v1_apply m ρ hO c p k))
    ((U5_v8_apply m ρ hO c k q).trans (U4_v4_apply m ρ hO c q k))

include hO in
/-- THE VALUE RUN, under `Ok`: the program terminates, its result array holds the specification's function of the
    argument arrays, and the four argument arrays end as launched. -/
theorem value_run : θ_run defs (onTc (τ := τ) (main (F := Ideal))) ⟨m, fun _ => 0, ρ⟩ (fun r => ∀ c : Dev nD,
      r.2.mem ((c.tc : Thread nD τ).loc main_v9) = Cert.Spec.G (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v9 (by decide))).trans (result_eq m ρ hO c),
     (h c _ (mem_uc main_arg0 (by decide))).trans (W6_kept m ρ hO c main_arg0 (by decide) (by decide) (by decide) (by decide) (by decide) (by decide)),
     (h c _ (mem_uc main_arg1 (by decide))).trans (W6_kept m ρ hO c main_arg1 (by decide) (by decide) (by decide) (by decide) (by decide) (by decide)),
     (h c _ (mem_uc main_arg2 (by decide))).trans (W6_kept m ρ hO c main_arg2 (by decide) (by decide) (by decide) (by decide) (by decide) (by decide)),
     (h c _ (mem_uc main_arg3 (by decide))).trans (W6_kept m ρ hO c main_arg3 (by decide) (by decide) (by decide) (by decide) (by decide) (by decide))⟩)
    (run_main m ρ hO)

end Cert.KernelIdeal.Fr

end
-- ==== Proof.lean ====
/-
  The certificate's five claims. Both programs compute, on ids in range, the matrix of inner products of the
  user rows named by the user ids with the item rows named by the item ids (Proof/Spec.lean). The kernel program
  gathers the named rows with two regions whose block numbers are read from the id tables, then multiplies; a block
  named by an out-of-range id would lie outside its table, so the precondition bounds the ids, and from that bound
  come the regions' side conditions (Proof/OkOfIds.lean), the frames of the kernel program at both instances
  (Proof/FrameRun.lean and its twin) and its result (Proof/ValueMain.lean). The reference's result is the same
  function (Proof/RefValue.lean): under the bound its wrap of negative ids and its gather's clamp do nothing. The
  ideal pass rewrote nothing, so the idealization claim is trivial.
-/
import proofs.«117546_j12781822673306_2_alg».proof.Defs
import proofs.«117546_j12781822673306_2_alg».proof.Proof.Gen.Kernel
import proofs.«117546_j12781822673306_2_alg».proof.Proof.Gen.KernelIdeal
import proofs.«117546_j12781822673306_2_alg».proof.Proof.Gen.ReferenceIdeal
import proofs.«117546_j12781822673306_2_alg».proof.Proof.Gen.Pre_finite_inputs
import proofs.«117546_j12781822673306_2_alg».proof.Proof.Gen.ReferenceIdeal.Run
import proofs.«117546_j12781822673306_2_alg».proof.Proof.FrameRun
import proofs.«117546_j12781822673306_2_alg».proof.Proof.KFrameRun
import proofs.«117546_j12781822673306_2_alg».proof.Proof.OkOfIds
import proofs.«117546_j12781822673306_2_alg».proof.Proof.KOkOfIds
import proofs.«117546_j12781822673306_2_alg».proof.Proof.Domain
import proofs.«117546_j12781822673306_2_alg».proof.Proof.RefValue
import proofs.«117546_j12781822673306_2_alg».proof.Proof.ValueMain
import Idealize.ShloMosaic.Adequacy
import Idealize.ShloMosaic.Init

noncomputable section

namespace Cert.Proof

open Idealize.ShloMosaic Idealize.SL.Sem

/-- The precondition bounds the ids, so the kernel program's regions meet their side conditions (word-level instance). -/
theorem ok_kernel (m : (ℓ : Loc Cert.Kernel.nD Cert.Kernel.τ Cert.Kernel.sig) → Buf (Elt Bits) ℓ) (h : Cert.Pre_Kernel m) :
    Cert.Kernel.Fr.Ok m :=
  Cert.Kernel.Fr.ok_of_ids m (Cert.Domain.ids_lt _ _ _ _ (h 0)).1 (Cert.Domain.ids_lt _ _ _ _ (h 0)).2

/-- The same at the ideal instance. -/
theorem ok_kernelIdeal (m : (ℓ : Loc Cert.KernelIdeal.nD Cert.KernelIdeal.τ Cert.KernelIdeal.sig) → Buf (Elt Ideal) ℓ) (h : Cert.Pre_KernelIdeal m) :
    Cert.KernelIdeal.Fr.Ok m :=
  Cert.KernelIdeal.Fr.ok_of_ids m (Cert.Domain.ids_lt _ _ _ _ (h 0)).1 (Cert.Domain.ids_lt _ _ _ _ (h 0)).2

theorem frame_k : Cert.frame_Kernel := fun m ρ h => Cert.Kernel.Fr.frame m ρ (ok_kernel m h)

theorem frame_ki : Cert.frame_KernelIdeal := fun m ρ h => Cert.KernelIdeal.Fr.frame m ρ (ok_kernelIdeal m h)

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's function of the (agreeing) argument arrays. -/
theorem algebraic : Cert.algebraic_KernelIdeal_ReferenceIdeal := by
  intro m ρ m' ρ' hpre hagree
  have hb := Cert.Domain.ids_lt _ _ _ _ (hpre 0)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Fr.value_run m ρ (ok_kernelIdeal m hpre), ?_⟩
  refine (θ_run Cert.ReferenceIdeal.defs _ _).mono (fun _ h c => ⟨(h c).1.trans ?_, (h c).2⟩)
    (Cert.RefValue.run m' ρ' (fun c i => ?_) (fun c i => ?_))
  · obtain rfl : c = 0 := Subsingleton.elim _ _
    rw [(hagree 0).2.2.1]; exact hb.1 i
  · obtain rfl : c = 0 := Subsingleton.elim _ _
    rw [(hagree 0).2.2.2]; exact hb.2 i
  · rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
